-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x64 : Shape := ⟨2, ![512, 64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S4x4096x512 .f32) (main_arg1 : FVec F S512x64 .f32) (main_arg2 : FVec F S512x64 .f32) (main_arg3 : FVec F S512x64 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S4x4096x512 : Shape := ⟨3, ![4, 4096, 512]⟩
abbrev S512x64 : Shape := ⟨2, ![512, 64]⟩
abbrev S4x4096x64 : Shape := ⟨3, ![4, 4096, 64]⟩
abbrev S1x1024x512 : Shape := ⟨3, ![1, 1024, 512]⟩
abbrev S1x1024x64 : Shape := ⟨3, ![1, 1024, 64]⟩
abbrev S1024x512 : Shape := ⟨2, ![1024, 512]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 7
  | .vmem => 21
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S4x4096x64, .bf16⟩
  | .hbm, ⟨5, _⟩ => ⟨S4x4096x64, .bf16⟩
  | .hbm, ⟨6, _⟩ => ⟨S4x4096x64, .f32⟩
  | .local _ .vmem, ⟨0, _⟩ => ⟨S1x1024x512, .f32⟩
  | .local _ .vmem, ⟨1, _⟩ => ⟨S1x1024x512, .f32⟩
  | .local _ .vmem, ⟨2, _⟩ => ⟨S512x64, .f32⟩
  | .local _ .vmem, ⟨3, _⟩ => ⟨S512x64, .f32⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S512x64, .f32⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .vmem, ⟨20, _⟩ => ⟨S1024x64, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v51 : BitVec 1 := Scalar.cmpi .eq arg2 c3_i32
  let v52 : BitVec 32 := Scalar.extui v51
  let c0_i32_26 : BitVec 32 := 0#32
  let v53 : BitVec 1 := Scalar.cmpi .ne v52 c0_i32_26
  v53

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S512x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x512_S512x64_S1024x64_1_0_0_1_n_n_wf : DotDims.WF S1024x512 S512x64 S1024x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .f32 = 32 ∨ (Rect.block (s := S4x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .bf16 = 32 ∨ (Rect.block (s := S4x4096x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x4096x512.size a
  hwx1_0 : ∀ i : grid1.Coords, EltTy.bits .f32 = 32 ∨ (Rect.block (s := S4x4096x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .f32 = 32 ∨ (Rect.block (s := S512x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S4x4096x64.size a
  hwx1_4 : ∀ i : grid1.Coords, EltTy.bits .f32 = 32 ∨ (Rect.block (s := S4x4096x64) S1x1024x64.size (cc1_transform_4 i) (hinb1_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S512x64 : Shape := ⟨2, ![512, 64]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x4096x4096, .i1⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x64_S4x4096x64_2_0_01_1_n_n_wf : DotDims.WF S4x4096x512 S512x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S512x64_S4x4096x64_2_0_01_1_n_n : DotDims S4x4096x512 S512x64 S4x4096x64 where
  lhsContracting := [2]
  rhsContracting := [0]
  lhsNonContracting := [0, 1]
  rhsNonContracting := [1]
  lhsBatch := []
  rhsBatch := []
  wf := dot_S4x4096x512_S512x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.R0Frame.lean ====
/-
  Region 0 of the kernel program: the key / value projection. At every grid point (b, j) the body reads one
  1024-row block of x and the two whole weight matrices, multiplies, and stores one 1024-row block of K = x·Wk and
  one of V = x·Wv. Here: what each output's staging buffer holds after the body as a function of the input blocks,
  the body's triple, the pipeline's proof data at region-entry contents V, and the body obligation at every point.
  Everything is stated for any float instance.
-/
import proofs.«163724_j46600395161875_2_alg».proof.Proof.Gen.Kernel.Launch
import proofs.«163724_j46600395161875_2_alg».proof.Proof.Gen.Kernel.Skeleton
import proofs.«163724_j46600395161875_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched its
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1x1024x512 := Rect.unit (s := S1x1024x512) ![0, 0, 0] S1x1024x512.size inb_S1x1024x512_S1x1024x512_0_0_0
abbrev r0_w : Rect S512x64 := Rect.unit (s := S512x64) ![0, 0] S512x64.size inb_S512x64_S512x64_0_0
abbrev r0_o : Rect S1x1024x64 := Rect.unit (s := S1x1024x64) ![0, 0, 0] S1x1024x64.size inb_S1x1024x64_S1x1024x64_0_0_0

/-! ## What the body leaves in each output window's buffer -/

/-- The K block: the one store's payload, the x block times Wk. -/
def out0_3 (x0 : Vec F S1x1024x512 .f32) (x1 : Vec F S512x64 .f32) : Vec F S1x1024x64 .bf16 :=
  View.canon [⟨r0_o, k0_pay2 (View.ld x0 r0_x) (View.ld x1 r0_w)⟩]
/-- The V block: the x block times Wv. -/
def out0_4 (x0 : Vec F S1x1024x512 .f32) (x2 : Vec F S512x64 .f32) : Vec F S1x1024x64 .bf16 :=
  View.canon [⟨r0_o, k0_pay3 (View.ld x0 r0_x) (View.ld x2 r0_w)⟩]

/-- The one store covers the buffer. -/
theorem cover0_o (p0 : Vec F S1x1024x64 .bf16) (y : S1x1024x64.Idx) :
    ∃ pc ∈ ([⟨r0_o, p0⟩] : List (View.Piece (Elt F) S1x1024x64 .bf16)), y ∈ pc.1.set :=
  View.cover_of_tiled [⟨r0_o, p0⟩] S1x1024x64.size (by rfl) y

/-! ## The body's triple -/

set_option maxHeartbeats 4000000 in
/-- On whole staging memrefs, the inputs' at contents x0 x1 x2 and the outputs' at anything, the body runs to the
    continuation with the inputs as they were and the outputs at the two products. -/
theorem sound_kernel0 (c : Dev nD) (E : Set ℕ) (i : grid0.Coords)
    (arg2 : Memref sig .tc .vmem S1x1024x512 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x512 .f32) (x1 x2 : Vec F S512x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x0 x2)) -∗ K ⟨⟩))
      ⊢ wp frame (wpE (defs₀ (F := F)) Variants.none c none) E (cc0__kv_proj_kernel i arg2 harg2 arg3 harg3 arg4 harg4 arg5 harg5 arg6 harg6) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The pipeline's proof data -/

/-- The proof data of pipeline 0 on core c: the arrays as the region finds them; after the body at point t each input's
    buffer at its block and each output's at the product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  Region 1 of the kernel program: the attention kernel with its online softmax, on a grid of 4 x 4 x 4 points
  (batch, query block, key block). What the three cases of the body share: each window's block at a point, the two
  branch conditions of the body in closed form over the grid (the first holds where the key-block coordinate is 0,
  the second where it is 3), where the output window is idle, the staging and scratch memrefs, and the region
  invariant with the four scratch buffers (running maximum, running sum, accumulator, projected queries) as memrefs
  owned at some contents. Everything is stated for any float instance and at a parameter V, the buffer contents
  when the region is entered.
-/
import proofs.«163724_j46600395161875_2_alg».proof.Proof.Gen.Kernel.Launch
import proofs.«163724_j46600395161875_2_alg».proof.Proof.Gen.Kernel.Skeleton
import proofs.«163724_j46600395161875_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched its
    block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional: the key-block coordinate is 0. -/
abbrev cond1_0 (i : grid1.Coords) : Prop := (Scalar.cmpi .ne (Scalar.extui (Scalar.cmpi .eq (BitVec.ofNat 32 (i 2).val) 0#32)) 0#32) = 1#1
/-- It holds at the points whose position is a multiple of 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: the key-block coordinate is 3. -/
abbrev cond1_1 (i : grid1.Coords) : Prop := k1_cond2 i = 1#1
/-- It holds at the points whose position is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the second conditional is not taken the body stores nothing into the output window: it is idle there, -/
theorem idleAt1_4 : ∀ t : Fin cfg1.N, ¬cond1_1 (grid1.coords t) → cfg1.idle 4 (grid1.coords t) = true := by decide +kernel
/-- and the pipeline does not write its block back there. -/
theorem noFlush1_4 : ∀ t : Fin cfg1.N, ¬cond1_1 (grid1.coords t) → (cfg1.win 4).flush t = false := by decide +kernel
/-- Where it is taken the output window is live. -/
theorem liveAt1_4 : ∀ t : Fin cfg1.N, cond1_1 (grid1.coords t) → cfg1.idle 4 (grid1.coords t) = false := by decide +kernel

/-! ## The staging and scratch memrefs -/

/-- Each window's current staging memref at point t, as the pipeline passes it to the body, and its wholeness. -/
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x64 .f32 := win1_4.stage (cfg1.slots t 4)
abbrev hs1_4 (t : Fin cfg1.N) : (ms1_4 t).IsWhole := hstage1_4 ((cfg1.slots t 4).cast nbuf1_4)
/-- The scratch operands, whole scoped buffers of the kernel's own: the running maximum, the running sum, the
    accumulator and the projected queries. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev scM1_3 : Memref sig .tc .vmem S1024x64 .bf16 := Memref.whole cc1_scratch3
/-- One staging buffer of the output window, through which its contents are stated. -/
abbrev VO1_4 : View sig .tc .vmem S1x1024x64 .f32 := (Memref.whole cc1_stg4_0 : Memref sig .tc .vmem S1x1024x64 .f32).view
/-- The scratch buffers as views. -/
abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VS1_3 : View sig .tc .vmem S1024x64 .bf16 := scM1_3.view

/-- The region invariant with the scratch operands as memrefs owned at some contents: the other region's staging
    buffers at some contents, the four scratch buffers, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.K.R1RunA.lean ====
/-
  The attention kernel's body at a point of the first key block (the first conditional taken, the second not):
  it initialises the running maximum, the running sum and the accumulator, projects the query block into scratch,
  and then makes one online-softmax step against the point's key and value blocks. All four scratch buffers are
  stored before they are read back, so the body runs from any contents of them; the output window is not touched.
  The run's witness is, per scratch buffer, the list of pieces its stores leave (last first).
-/
import proofs.«163724_j46600395161875_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs, the four inputs at their contents, the output window's buffer at contents xi4, the four
    scratch buffers at anything, the body runs to the continuation holding the inputs and the output buffer as they
    were and each scratch buffer with its pieces written. -/
noncomputable def kernelRun1_A (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    Σ' (LS0 : List (View.Piece (Elt F) S1024x1 .f32)) (LS1 : List (View.Piece (Elt F) S1024x1 .f32)) (LS2 : List (View.Piece (Elt F) S1024x64 .f32)), { LS3 : List (View.Piece (Elt F) S1024x64 .bf16) //
      ∀ (xi4 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.R1RunB.lean ====
/-
  The attention kernel's body at a point of a middle key block (neither conditional taken): one online-softmax
  step against the point's key and value blocks, from the running maximum, running sum and accumulator the point
  before left, with the projected queries read from scratch and left as they are. The output window is not touched.
  The run's witness is, per updated scratch buffer, the list of pieces its stores leave (last first).
-/
import proofs.«163724_j46600395161875_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs, the four inputs at their contents, the output window's buffer at contents xi4, the four
    scratch buffers at the contents xs0 .. xs3 the point before left, the body runs to the continuation holding the
    inputs, the output buffer and the projected queries as they were and each of the other three scratch buffers
    with its pieces written. -/
noncomputable def kernelRun1_B (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    Σ' (LS0 : List (View.Piece (Elt F) S1024x1 .f32)) (LS1 : List (View.Piece (Elt F) S1024x1 .f32)), { LS2 : List (View.Piece (Elt F) S1024x64 .f32) //
      ∀ (xi4 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K.R1RunC.lean ====
/-
  The attention kernel's body at a point of the last key block (the first conditional not taken, the second
  taken): one online-softmax step as at a middle key block, and then the output block is stored as the accumulator
  divided row by row by the running sum. The output window's buffer is stored whole after an unused load of it, so
  the body runs from any contents of it. The run's witness is the list of pieces the stores leave (last first) in
  the output buffer and in each updated scratch buffer.
-/
import proofs.«163724_j46600395161875_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs, the four inputs at their contents, the output window's buffer at anything, the four scratch
    buffers at the contents xs0 .. xs3 the point before left, the body runs to the continuation holding the inputs
    and the projected queries as they were, and the output buffer and each of the other three scratch buffers with
    its pieces written. -/
noncomputable def kernelRun1_C (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    Σ' (L4 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K.R1Frame.lean ====
/-
  Region 1 of the kernel program, the rest of its frame: what each case of the body leaves in the scratch buffers
  and in the output window's buffer (the pieces its run found, read back), the same point by point along the grid
  (the online-softmax state carried from each key block to the next, restarted at every first key block), the
  pipeline's proof data at region-entry contents V with the invariant that tracks the four scratch buffers, the
  body obligation at every point, and the invariant's two ends. Everything is stated for any float instance.
-/
import proofs.«163724_j46600395161875_2_alg».proof.Proof.K.R1RunC
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- Where the body stores nothing into the output window (cases A and B) its contents after the body are a
    placeholder nothing consults: the window is neither written back there nor read at the next point. -/
def out1_idle_4 : Vec F S1x1024x64 .f32 :=
  VO1_4.read (Elt F) (VO1_4.writes (Elt F) VO1_4.junk [])

/-- Case A's stores into the scratch buffer of the running maximum cover it. -/
theorem scover1_A_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1024x1.size (by sl_kernel_rfl) y

/-- What case A leaves in it: its pieces read back over arbitrary contents. -/
def sout1_A_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- Case A's stores into the scratch buffer of the running sum cover it. -/
theorem scover1_A_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S1024x1.size (by sl_kernel_rfl) y

/-- What case A leaves in it: its pieces read back over arbitrary contents. -/
def sout1_A_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- Case A's stores into the scratch buffer of the accumulator cover it. -/
theorem scover1_A_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S1024x64.size (by sl_kernel_rfl) y

/-- What case A leaves in it: its pieces read back over arbitrary contents. -/
def sout1_A_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- Case A's stores into the scratch buffer of the projected queries cover it. -/
theorem scover1_A_3 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S1024x64.size (by sl_kernel_rfl) y

/-- What case A leaves in it: its pieces read back over arbitrary contents. -/
def sout1_A_3 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x64 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- Case B's stores into the scratch buffer of the running maximum cover it. -/
theorem scover1_B_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What case B leaves in it: its pieces read back over arbitrary contents. -/
def sout1_B_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- Case B's stores into the scratch buffer of the running sum cover it. -/
theorem scover1_B_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What case B leaves in it: its pieces read back over arbitrary contents. -/
def sout1_B_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- Case B's stores into the scratch buffer of the accumulator cover it. -/
theorem scover1_B_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x64.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S1024x64.size (by sl_kernel_rfl) y

/-- What case B leaves in it: its pieces read back over arbitrary contents. -/
def sout1_B_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- Case C's one store into the output window's buffer covers it. -/
theorem cover1_C_4 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1x1024x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x1024x64.size (by sl_kernel_rfl) y

/-- What case C leaves in the output window's buffer: its pieces read back over arbitrary contents. -/
def out1_C_4 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1x1024x64 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

/-- Case C's stores into the scratch buffer of the running maximum cover it. -/
theorem scover1_C_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What case C leaves in it: its pieces read back over arbitrary contents. -/
def sout1_C_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)

/-- Case C's stores into the scratch buffer of the running sum cover it. -/
theorem scover1_C_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What case C leaves in it: its pieces read back over arbitrary contents. -/
def sout1_C_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)

/-- Case C's stores into the scratch buffer of the accumulator cover it. -/
theorem scover1_C_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S1024x64.size (by sl_kernel_rfl) y

/-- What case C leaves in it: its pieces read back over arbitrary contents. -/
def sout1_C_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)

/-! ## The cases along the grid -/

theorem c0_of_0 (t : Fin cfg1.N) (h0 : t.val % 4 = 0) : cond1_0 (grid1.coords t) := (hcond1_0 t).mpr h0
theorem nc1_of_0 (t : Fin cfg1.N) (h0 : t.val % 4 = 0) : ¬cond1_1 (grid1.coords t) := fun h => by
  have h3 := (hcond1_1 t).mp h; omega
theorem nc0_of_n0 (t : Fin cfg1.N) (h0 : ¬t.val % 4 = 0) : ¬cond1_0 (grid1.coords t) := fun h => h0 ((hcond1_0 t).mp h)
theorem nc1_of_n3 (t : Fin cfg1.N) (h1 : ¬t.val % 4 = 3) : ¬cond1_1 (grid1.coords t) := fun h => h1 ((hcond1_1 t).mp h)
theorem c1_of_3 (t : Fin cfg1.N) (h1 : t.val % 4 = 3) : cond1_1 (grid1.coords t) := (hcond1_1 t).mpr h1
theorem nc0_of_3 (t : Fin cfg1.N) (h1 : t.val % 4 = 3) : ¬cond1_0 (grid1.coords t) := fun h => by
  have h0 := (hcond1_0 t).mp h; omega

section Regions

variable (V : (c : Dev nD) → (b : Ref sig .tc) → Buf (Elt F) ((c : Thread nD τ).loc b))

/-! ## What the output buffer and the scratch buffers hold after each point -/

/-- After the body at position n: the output window's buffer, then the running maximum, the running sum, the
    accumulator and the projected queries. At a first key block (n a multiple of 4) the body starts afresh from the
    point's blocks; elsewhere it continues from what position n - 1 left; at a last key block (n = 3 modulo 4) it
    also stores the output block. -/
def outsAt1 (c : Dev nD) : (n : ℕ) → n < cfg1.N → Vec F S1x1024x64 .f32 × Vec F S1024x1 .f32 × Vec F S1024x1 .f32 × Vec F S1024x64 .f32 × Vec F S1024x64 .bf16
  | 0, hn => (out1_idle_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_idle_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)
      else
        (out1_idle_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)

/-- At a first key block: case A's contents. -/
theorem outsAt1_A (c : Dev nD) (t : Fin cfg1.N) (h0 : t.val % 4 = 0) :
    outsAt1 V c t.val t.isLt = (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t)) := by
  obtain ⟨n, hn⟩ := t
  cases n with
  | zero => exact rfl
  | succ n => exact (dif_pos h0).trans rfl

/-- At a middle key block: case B's contents, over what the point before left. -/
theorem outsAt1_B (c : Dev nD) (t : Fin cfg1.N) (h0 : ¬t.val % 4 = 0) (h1 : ¬t.val % 4 = 3) :
    outsAt1 V c t.val t.isLt = (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_neg h1).trans rfl)

/-- At a last key block: case C's contents, over what the point before left. -/
theorem outsAt1_C (c : Dev nD) (t : Fin cfg1.N) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact absurd (show 0 % 4 = 3 from h1) (by decide)
  | succ n => exact (dif_neg (fun h0 : (n + 1) % 4 = 0 => by (try dsimp only at h1); omega)).trans ((dif_pos h1).trans rfl)

/-! ## The invariant -/

/-- The region invariant before position n: before the first point every scratch buffer at anything; afterwards
    each of the four at what the point before left in it; the other region's staging buffers and the generator
    register at anything throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The pipeline's proof data -/

/-- The proof data of the attention pipeline on core c: the arrays as the region finds them; after the body at a
    point each input's buffer at its block and the output's at the point's first component; the invariant that tracks
    the scratch buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the output window's buffer as found where the body leaves it alone. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t)

set_option maxHeartbeats 8000000 in
/-- The body at any point: the inputs' memrefs hold their blocks; the position modulo 4 says which case the point is
    in; the invariant hands the body the scratch buffers at what the point before left (at anything before the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 64 := lt_of_lt_of_eq t.isLt (show cfg1.N = 64 from N_1)
  by_cases h0 : t.val % 4 = 0
  · rw [Dat.leavesExact_idle (dat1 V c) 4 t (idleAt1_4 t (nc1_of_0 t h0)) (noFlush1_4 t (nc1_of_0 t h0))]
    rw [outsAt1_A V c t h0]
    unfold sout1_A_0 sout1_A_1 sout1_A_2 sout1_A_3; (try dsimp only)
    by_cases hz : t.val = 0
    · rw [PhiS1_castSucc V c t, PhiS1_zero V c _ _ hz, PhiA1_eq]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ (c0_of_0 t h0) (nc1_of_0 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          · unfold owns; iexists _; isplitr
            swap; · iexact HS3
            ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ (c0_of_0 t h0) (nc1_of_0 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          · unfold owns; iexists _; isplitr
            swap; · iexact HS3
            ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t (c1_of_3 t h1)], after1_4]
      rw [outsAt1_C V c t h1]
      unfold out1_C_4 sout1_C_0 sout1_C_1 sout1_C_2; (try dsimp only)
      rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ (nc0_of_3 t h1) (c1_of_3 t h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · rw [Dat.leavesExact_idle (dat1 V c) 4 t (idleAt1_4 t (nc1_of_n3 t h1)) (noFlush1_4 t (nc1_of_n3 t h1))]
      rw [outsAt1_B V c t h0 h1]
      unfold sout1_B_0 sout1_B_1 sout1_B_2; (try dsimp only)
      rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ (nc0_of_n0 t h0) (nc1_of_n3 t h1) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1, HS2, HS3⟩, Hg⟩
  isplitl [HR0 HR1 HR2 HR3 HR4 HR5 HR6 HR7 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.K.Run.lean ====
/-
  The run of the kernel program: two kernel regions, one after the other, with no host operation between them.
  Region 0 is entered from the launch memory and leaves the projected K and V arrays; region 1 is entered from what
  region 0 left and leaves the result array. The buffer contents at the three boundaries are a fold from the launch
  memory; each region is a segment over the thread state "every unscoped buffer at the boundary's contents, the
  generator register at some state, nothing owed". The run's post names the result array's final contents and says
  the four argument arrays end as launched. Stated for any float instance.
-/
import proofs.«163724_j46600395161875_2_alg».proof.Proof.K.R0Frame
import proofs.«163724_j46600395161875_2_alg».proof.Proof.K.R1Frame
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched; the K and V arrays reach region 1 as region 0 left them -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg3 (c : Dev nD) : W1 m ρ c (Proc.devRef .tc main_arg3) = m ((c : Thread nD τ).loc main_arg3) :=
  (W1_arr m ρ c 2).trans (((dat0 (V0 m ρ) c).arrAt_in 2 rfl _).trans (A_eq0 (V0 m ρ) c 2))
theorem W1_main_arg1 (c : Dev nD) : W1 m ρ c (Proc.devRef .tc main_arg1) = m ((c : Thread nD τ).loc main_arg1) :=
  W1_of_ne m ρ c main_arg1 (by decide)

theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
theorem W2_main_arg1 (c : Dev nD) : W2 m ρ c (Proc.devRef .tc main_arg1) = m ((c : Thread nD τ).loc main_arg1) :=
  ((W2_arr m ρ c 3).trans (((dat1 (V1 m ρ) c).arrAt_in 3 rfl _).trans (A_eq1 (V1 m ρ) c 3))).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
/-- The result array ends at what region 1's write-backs leave. -/
theorem W2_main_v1 (c : Dev nD) : W2 m ρ c (Proc.devRef .tc main_v1) = (dat1 (V1 m ρ) c).arrAt 4 cfg1.N :=
  W2_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from W1, left at W2. Its invariant starts as the scoped rest and the
    generator register and ends giving them back; between, it holds the four carried scratch buffers at the online
    softmax state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    refine (hout1 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each core's unscoped buffers hold the last boundary's contents: the result array what region
    1's write-backs leave, each argument array its launch contents. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KI.R0Frame.lean ====
/-
  Region 0 of the kernel program: the key / value projection. At every grid point (b, j) the body reads one
  1024-row block of x and the two whole weight matrices, multiplies, and stores one 1024-row block of K = x·Wk and
  one of V = x·Wv. Here: what each output's staging buffer holds after the body as a function of the input blocks,
  the body's triple, the pipeline's proof data at region-entry contents V, and the body obligation at every point.
  Everything is stated for any float instance.
-/
import proofs.«163724_j46600395161875_2_alg».proof.Proof.Gen.KernelIdeal.Launch
import proofs.«163724_j46600395161875_2_alg».proof.Proof.Gen.KernelIdeal.Skeleton
import proofs.«163724_j46600395161875_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched its
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_x : Rect S1x1024x512 := Rect.unit (s := S1x1024x512) ![0, 0, 0] S1x1024x512.size inb_S1x1024x512_S1x1024x512_0_0_0
abbrev r0_w : Rect S512x64 := Rect.unit (s := S512x64) ![0, 0] S512x64.size inb_S512x64_S512x64_0_0
abbrev r0_o : Rect S1x1024x64 := Rect.unit (s := S1x1024x64) ![0, 0, 0] S1x1024x64.size inb_S1x1024x64_S1x1024x64_0_0_0

/-! ## What the body leaves in each output window's buffer -/

/-- The K block: the one store's payload, the x block times Wk. -/
def out0_3 (x0 : Vec F S1x1024x512 .f32) (x1 : Vec F S512x64 .f32) : Vec F S1x1024x64 .bf16 :=
  View.canon [⟨r0_o, k0_pay2 (View.ld x0 r0_x) (View.ld x1 r0_w)⟩]
/-- The V block: the x block times Wv. -/
def out0_4 (x0 : Vec F S1x1024x512 .f32) (x2 : Vec F S512x64 .f32) : Vec F S1x1024x64 .bf16 :=
  View.canon [⟨r0_o, k0_pay3 (View.ld x0 r0_x) (View.ld x2 r0_w)⟩]

/-- The one store covers the buffer. -/
theorem cover0_o (p0 : Vec F S1x1024x64 .bf16) (y : S1x1024x64.Idx) :
    ∃ pc ∈ ([⟨r0_o, p0⟩] : List (View.Piece (Elt F) S1x1024x64 .bf16)), y ∈ pc.1.set :=
  View.cover_of_tiled [⟨r0_o, p0⟩] S1x1024x64.size (by rfl) y

/-! ## The body's triple -/

set_option maxHeartbeats 4000000 in
/-- On whole staging memrefs, the inputs' at contents x0 x1 x2 and the outputs' at anything, the body runs to the
    continuation with the inputs as they were and the outputs at the two products. -/
theorem sound_kernel0 (c : Dev nD) (E : Set ℕ) (i : grid0.Coords)
    (arg2 : Memref sig .tc .vmem S1x1024x512 .f32) (harg2 : arg2.IsWhole) (arg3 : Memref sig .tc .vmem S512x64 .f32) (harg3 : arg3.IsWhole)
    (arg4 : Memref sig .tc .vmem S512x64 .f32) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x512 .f32) (x1 x2 : Vec F S512x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x0 x2)) -∗ K ⟨⟩))
      ⊢ wp frame (wpE (defs₀ (F := F)) Variants.none c none) E (cc0__kv_proj_kernel i arg2 harg2 arg3 harg3 arg4 harg4 arg5 harg5 arg6 harg6) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The pipeline's proof data -/

/-- The proof data of pipeline 0 on core c: the arrays as the region finds them; after the body at point t each input's
    buffer at its block and each output's at the product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Region 1 of the kernel program: the attention kernel with its online softmax, on a grid of 4 x 4 x 4 points
  (batch, query block, key block). What the three cases of the body share: each window's block at a point, the two
  branch conditions of the body in closed form over the grid (the first holds where the key-block coordinate is 0,
  the second where it is 3), where the output window is idle, the staging and scratch memrefs, and the region
  invariant with the four scratch buffers (running maximum, running sum, accumulator, projected queries) as memrefs
  owned at some contents. Everything is stated for any float instance and at a parameter V, the buffer contents
  when the region is entered.
-/
import proofs.«163724_j46600395161875_2_alg».proof.Proof.Gen.KernelIdeal.Launch
import proofs.«163724_j46600395161875_2_alg».proof.Proof.Gen.KernelIdeal.Skeleton
import proofs.«163724_j46600395161875_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched its
    block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional: the key-block coordinate is 0. -/
abbrev cond1_0 (i : grid1.Coords) : Prop := (Scalar.cmpi .ne (Scalar.extui (Scalar.cmpi .eq (BitVec.ofNat 32 (i 2).val) 0#32)) 0#32) = 1#1
/-- It holds at the points whose position is a multiple of 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: the key-block coordinate is 3. -/
abbrev cond1_1 (i : grid1.Coords) : Prop := k1_cond2 i = 1#1
/-- It holds at the points whose position is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the second conditional is not taken the body stores nothing into the output window: it is idle there, -/
theorem idleAt1_4 : ∀ t : Fin cfg1.N, ¬cond1_1 (grid1.coords t) → cfg1.idle 4 (grid1.coords t) = true := by decide +kernel
/-- and the pipeline does not write its block back there. -/
theorem noFlush1_4 : ∀ t : Fin cfg1.N, ¬cond1_1 (grid1.coords t) → (cfg1.win 4).flush t = false := by decide +kernel
/-- Where it is taken the output window is live. -/
theorem liveAt1_4 : ∀ t : Fin cfg1.N, cond1_1 (grid1.coords t) → cfg1.idle 4 (grid1.coords t) = false := by decide +kernel

/-! ## The staging and scratch memrefs -/

/-- Each window's current staging memref at point t, as the pipeline passes it to the body, and its wholeness. -/
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x64 .f32 := win1_4.stage (cfg1.slots t 4)
abbrev hs1_4 (t : Fin cfg1.N) : (ms1_4 t).IsWhole := hstage1_4 ((cfg1.slots t 4).cast nbuf1_4)
/-- The scratch operands, whole scoped buffers of the kernel's own: the running maximum, the running sum, the
    accumulator and the projected queries. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev scM1_3 : Memref sig .tc .vmem S1024x64 .bf16 := Memref.whole cc1_scratch3
/-- One staging buffer of the output window, through which its contents are stated. -/
abbrev VO1_4 : View sig .tc .vmem S1x1024x64 .f32 := (Memref.whole cc1_stg4_0 : Memref sig .tc .vmem S1x1024x64 .f32).view
/-- The scratch buffers as views. -/
abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VS1_3 : View sig .tc .vmem S1024x64 .bf16 := scM1_3.view

/-- The region invariant with the scratch operands as memrefs owned at some contents: the other region's staging
    buffers at some contents, the four scratch buffers, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.R1RunA.lean ====
/-
  The attention kernel's body at a point of the first key block (the first conditional taken, the second not):
  it initialises the running maximum, the running sum and the accumulator, projects the query block into scratch,
  and then makes one online-softmax step against the point's key and value blocks. All four scratch buffers are
  stored before they are read back, so the body runs from any contents of them; the output window is not touched.
  The run's witness is, per scratch buffer, the list of pieces its stores leave (last first).
-/
import proofs.«163724_j46600395161875_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs, the four inputs at their contents, the output window's buffer at contents xi4, the four
    scratch buffers at anything, the body runs to the continuation holding the inputs and the output buffer as they
    were and each scratch buffer with its pieces written. -/
noncomputable def kernelRun1_A (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    Σ' (LS0 : List (View.Piece (Elt F) S1024x1 .f32)) (LS1 : List (View.Piece (Elt F) S1024x1 .f32)) (LS2 : List (View.Piece (Elt F) S1024x64 .f32)), { LS3 : List (View.Piece (Elt F) S1024x64 .bf16) //
      ∀ (xi4 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
/-
  The attention kernel's body at a point of a middle key block (neither conditional taken): one online-softmax
  step against the point's key and value blocks, from the running maximum, running sum and accumulator the point
  before left, with the projected queries read from scratch and left as they are. The output window is not touched.
  The run's witness is, per updated scratch buffer, the list of pieces its stores leave (last first).
-/
import proofs.«163724_j46600395161875_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs, the four inputs at their contents, the output window's buffer at contents xi4, the four
    scratch buffers at the contents xs0 .. xs3 the point before left, the body runs to the continuation holding the
    inputs, the output buffer and the projected queries as they were and each of the other three scratch buffers
    with its pieces written. -/
noncomputable def kernelRun1_B (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    Σ' (LS0 : List (View.Piece (Elt F) S1024x1 .f32)) (LS1 : List (View.Piece (Elt F) S1024x1 .f32)), { LS2 : List (View.Piece (Elt F) S1024x64 .f32) //
      ∀ (xi4 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI.R1RunC.lean ====
/-
  The attention kernel's body at a point of the last key block (the first conditional not taken, the second
  taken): one online-softmax step as at a middle key block, and then the output block is stored as the accumulator
  divided row by row by the running sum. The output window's buffer is stored whole after an unused load of it, so
  the body runs from any contents of it. The run's witness is the list of pieces the stores leave (last first) in
  the output buffer and in each updated scratch buffer.
-/
import proofs.«163724_j46600395161875_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs, the four inputs at their contents, the output window's buffer at anything, the four scratch
    buffers at the contents xs0 .. xs3 the point before left, the body runs to the continuation holding the inputs
    and the projected queries as they were, and the output buffer and each of the other three scratch buffers with
    its pieces written. -/
noncomputable def kernelRun1_C (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    Σ' (L4 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI.R1Frame.lean ====
/-
  Region 1 of the kernel program, the rest of its frame: what each case of the body leaves in the scratch buffers
  and in the output window's buffer (the pieces its run found, read back), the same point by point along the grid
  (the online-softmax state carried from each key block to the next, restarted at every first key block), the
  pipeline's proof data at region-entry contents V with the invariant that tracks the four scratch buffers, the
  body obligation at every point, and the invariant's two ends. Everything is stated for any float instance.
-/
import proofs.«163724_j46600395161875_2_alg».proof.Proof.KI.R1RunC
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- Where the body stores nothing into the output window (cases A and B) its contents after the body are a
    placeholder nothing consults: the window is neither written back there nor read at the next point. -/
def out1_idle_4 : Vec F S1x1024x64 .f32 :=
  VO1_4.read (Elt F) (VO1_4.writes (Elt F) VO1_4.junk [])

/-- Case A's stores into the scratch buffer of the running maximum cover it. -/
theorem scover1_A_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1024x1.size (by sl_kernel_rfl) y

/-- What case A leaves in it: its pieces read back over arbitrary contents. -/
def sout1_A_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- Case A's stores into the scratch buffer of the running sum cover it. -/
theorem scover1_A_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S1024x1.size (by sl_kernel_rfl) y

/-- What case A leaves in it: its pieces read back over arbitrary contents. -/
def sout1_A_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- Case A's stores into the scratch buffer of the accumulator cover it. -/
theorem scover1_A_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S1024x64.size (by sl_kernel_rfl) y

/-- What case A leaves in it: its pieces read back over arbitrary contents. -/
def sout1_A_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- Case A's stores into the scratch buffer of the projected queries cover it. -/
theorem scover1_A_3 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) (y : S1024x64.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S1024x64.size (by sl_kernel_rfl) y

/-- What case A leaves in it: its pieces read back over arbitrary contents. -/
def sout1_A_3 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) : Vec F S1024x64 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- Case B's stores into the scratch buffer of the running maximum cover it. -/
theorem scover1_B_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What case B leaves in it: its pieces read back over arbitrary contents. -/
def sout1_B_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- Case B's stores into the scratch buffer of the running sum cover it. -/
theorem scover1_B_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What case B leaves in it: its pieces read back over arbitrary contents. -/
def sout1_B_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- Case B's stores into the scratch buffer of the accumulator cover it. -/
theorem scover1_B_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x64.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S1024x64.size (by sl_kernel_rfl) y

/-- What case B leaves in it: its pieces read back over arbitrary contents. -/
def sout1_B_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- Case C's one store into the output window's buffer covers it. -/
theorem cover1_C_4 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1x1024x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x1024x64.size (by sl_kernel_rfl) y

/-- What case C leaves in the output window's buffer: its pieces read back over arbitrary contents. -/
def out1_C_4 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1x1024x64 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

/-- Case C's stores into the scratch buffer of the running maximum cover it. -/
theorem scover1_C_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What case C leaves in it: its pieces read back over arbitrary contents. -/
def sout1_C_0 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)

/-- Case C's stores into the scratch buffer of the running sum cover it. -/
theorem scover1_C_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What case C leaves in it: its pieces read back over arbitrary contents. -/
def sout1_C_1 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)

/-- Case C's stores into the scratch buffer of the accumulator cover it. -/
theorem scover1_C_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) (y : S1024x64.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S1024x64.size (by sl_kernel_rfl) y

/-- What case C leaves in it: its pieces read back over arbitrary contents. -/
def sout1_C_2 (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) : Vec F S1024x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)

/-! ## The cases along the grid -/

theorem c0_of_0 (t : Fin cfg1.N) (h0 : t.val % 4 = 0) : cond1_0 (grid1.coords t) := (hcond1_0 t).mpr h0
theorem nc1_of_0 (t : Fin cfg1.N) (h0 : t.val % 4 = 0) : ¬cond1_1 (grid1.coords t) := fun h => by
  have h3 := (hcond1_1 t).mp h; omega
theorem nc0_of_n0 (t : Fin cfg1.N) (h0 : ¬t.val % 4 = 0) : ¬cond1_0 (grid1.coords t) := fun h => h0 ((hcond1_0 t).mp h)
theorem nc1_of_n3 (t : Fin cfg1.N) (h1 : ¬t.val % 4 = 3) : ¬cond1_1 (grid1.coords t) := fun h => h1 ((hcond1_1 t).mp h)
theorem c1_of_3 (t : Fin cfg1.N) (h1 : t.val % 4 = 3) : cond1_1 (grid1.coords t) := (hcond1_1 t).mpr h1
theorem nc0_of_3 (t : Fin cfg1.N) (h1 : t.val % 4 = 3) : ¬cond1_0 (grid1.coords t) := fun h => by
  have h0 := (hcond1_0 t).mp h; omega

section Regions

variable (V : (c : Dev nD) → (b : Ref sig .tc) → Buf (Elt F) ((c : Thread nD τ).loc b))

/-! ## What the output buffer and the scratch buffers hold after each point -/

/-- After the body at position n: the output window's buffer, then the running maximum, the running sum, the
    accumulator and the projected queries. At a first key block (n a multiple of 4) the body starts afresh from the
    point's blocks; elsewhere it continues from what position n - 1 left; at a last key block (n = 3 modulo 4) it
    also stores the output block. -/
def outsAt1 (c : Dev nD) : (n : ℕ) → n < cfg1.N → Vec F S1x1024x64 .f32 × Vec F S1024x1 .f32 × Vec F S1024x1 .f32 × Vec F S1024x64 .f32 × Vec F S1024x64 .bf16
  | 0, hn => (out1_idle_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) (c0_of_0 ⟨0, hn⟩ (Nat.zero_mod _)) (nc1_of_0 ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_idle_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (c0_of_0 ⟨n + 1, hn⟩ h0) (nc1_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_3 ⟨n + 1, hn⟩ h1) (c1_of_3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)
      else
        (out1_idle_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (nc0_of_n0 ⟨n + 1, hn⟩ h0) (nc1_of_n3 ⟨n + 1, hn⟩ h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)

/-- At a first key block: case A's contents. -/
theorem outsAt1_A (c : Dev nD) (t : Fin cfg1.N) (h0 : t.val % 4 = 0) :
    outsAt1 V c t.val t.isLt = (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t), sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (c0_of_0 t h0) (nc1_of_0 t h0) (iblk1 V c 0 t) (iblk1 V c 1 t) (iblk1 V c 2 t) (iblk1 V c 3 t)) := by
  obtain ⟨n, hn⟩ := t
  cases n with
  | zero => exact rfl
  | succ n => exact (dif_pos h0).trans rfl

/-- At a middle key block: case B's contents, over what the point before left. -/
theorem outsAt1_B (c : Dev nD) (t : Fin cfg1.N) (h0 : ¬t.val % 4 = 0) (h1 : ¬t.val % 4 = 3) :
    outsAt1 V c t.val t.isLt = (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_n0 t h0) (nc1_of_n3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact absurd (Nat.zero_mod _) h0
  | succ n => exact (dif_neg h0).trans ((dif_neg h1).trans rfl)

/-- At a last key block: case C's contents, over what the point before left. -/
theorem outsAt1_C (c : Dev nD) (t : Fin cfg1.N) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (nc0_of_3 t h1) (c1_of_3 t h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact absurd (show 0 % 4 = 3 from h1) (by decide)
  | succ n => exact (dif_neg (fun h0 : (n + 1) % 4 = 0 => by (try dsimp only at h1); omega)).trans ((dif_pos h1).trans rfl)

/-! ## The invariant -/

/-- The region invariant before position n: before the first point every scratch buffer at anything; afterwards
    each of the four at what the point before left in it; the other region's staging buffers and the generator
    register at anything throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The pipeline's proof data -/

/-- The proof data of the attention pipeline on core c: the arrays as the region finds them; after the body at a
    point each input's buffer at its block and the output's at the point's first component; the invariant that tracks
    the scratch buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the output window's buffer as found where the body leaves it alone. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t)

set_option maxHeartbeats 8000000 in
/-- The body at any point: the inputs' memrefs hold their blocks; the position modulo 4 says which case the point is
    in; the invariant hands the body the scratch buffers at what the point before left (at anything before the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  have hN : t.val < 64 := lt_of_lt_of_eq t.isLt (show cfg1.N = 64 from N_1)
  by_cases h0 : t.val % 4 = 0
  · rw [Dat.leavesExact_idle (dat1 V c) 4 t (idleAt1_4 t (nc1_of_0 t h0)) (noFlush1_4 t (nc1_of_0 t h0))]
    rw [outsAt1_A V c t h0]
    unfold sout1_A_0 sout1_A_1 sout1_A_2 sout1_A_3; (try dsimp only)
    by_cases hz : t.val = 0
    · rw [PhiS1_castSucc V c t, PhiS1_zero V c _ _ hz, PhiA1_eq]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ (c0_of_0 t h0) (nc1_of_0 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          · unfold owns; iexists _; isplitr
            swap; · iexact HS3
            ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ (c0_of_0 t h0) (nc1_of_0 t h0) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          · unfold owns; iexists _; isplitr
            swap; · iexact HS3
            ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t (c1_of_3 t h1)], after1_4]
      rw [outsAt1_C V c t h1]
      unfold out1_C_4 sout1_C_0 sout1_C_1 sout1_C_2; (try dsimp only)
      rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ (nc0_of_3 t h1) (c1_of_3 t h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · rw [Dat.leavesExact_idle (dat1 V c) 4 t (idleAt1_4 t (nc1_of_n3 t h1)) (noFlush1_4 t (nc1_of_n3 t h1))]
      rw [outsAt1_B V c t h0 h1]
      unfold sout1_B_0 sout1_B_1 sout1_B_2; (try dsimp only)
      rw [PhiS1_castSucc V c t, PhiS1_pos V c _ _ hz]
      iintro ⟨⟨⟨HR0, HR1, HR2, HR3, HR4, HR5, HR6, HR7, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ (nc0_of_n0 t h0) (nc1_of_n3 t h1) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HR0 HR1 HR2 HR3 HR4 HR5 HR6 HR7 HS0 HS1 HS2 HS3 Hg]
      · isplitl [HR0 HR1 HR2 HR3 HR4 HR5 HR6 HR7 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1, HS2, HS3⟩, Hg⟩
  isplitl [HR0 HR1 HR2 HR3 HR4 HR5 HR6 HR7 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Run.lean ====
/-
  The run of the kernel program: two kernel regions, one after the other, with no host operation between them.
  Region 0 is entered from the launch memory and leaves the projected K and V arrays; region 1 is entered from what
  region 0 left and leaves the result array. The buffer contents at the three boundaries are a fold from the launch
  memory; each region is a segment over the thread state "every unscoped buffer at the boundary's contents, the
  generator register at some state, nothing owed". The run's post names the result array's final contents and says
  the four argument arrays end as launched. Stated for any float instance.
-/
import proofs.«163724_j46600395161875_2_alg».proof.Proof.KI.R0Frame
import proofs.«163724_j46600395161875_2_alg».proof.Proof.KI.R1Frame
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched; the K and V arrays reach region 1 as region 0 left them -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg3 (c : Dev nD) : W1 m ρ c (Proc.devRef .tc main_arg3) = m ((c : Thread nD τ).loc main_arg3) :=
  (W1_arr m ρ c 2).trans (((dat0 (V0 m ρ) c).arrAt_in 2 rfl _).trans (A_eq0 (V0 m ρ) c 2))
theorem W1_main_arg1 (c : Dev nD) : W1 m ρ c (Proc.devRef .tc main_arg1) = m ((c : Thread nD τ).loc main_arg1) :=
  W1_of_ne m ρ c main_arg1 (by decide)

theorem W2_main_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_main_arg0 m ρ c)
theorem W2_main_arg1 (c : Dev nD) : W2 m ρ c (Proc.devRef .tc main_arg1) = m ((c : Thread nD τ).loc main_arg1) :=
  ((W2_arr m ρ c 3).trans (((dat1 (V1 m ρ) c).arrAt_in 3 rfl _).trans (A_eq1 (V1 m ρ) c 3))).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
/-- The result array ends at what region 1's write-backs leave. -/
theorem W2_main_v1 (c : Dev nD) : W2 m ρ c (Proc.devRef .tc main_v1) = (dat1 (V1 m ρ) c).arrAt 4 cfg1.N :=
  W2_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from W1, left at W2. Its invariant starts as the scoped rest and the
    generator register and ends giving them back; between, it holds the four carried scratch buffers at the online
    softmax state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    refine (hout1 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each core's unscoped buffers hold the last boundary's contents: the result array what region
    1's write-backs leave, each argument array its launch contents. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

/-! The common specification of both programs: single-head attention with the diagonal of the
score matrix replaced by zero, written entry by entry over the extended reals. -/

noncomputable section

namespace Cert.Spec
open Idealize.ShloMosaic Idealize.ShloMosaic.ValueIdx

abbrev SX : Shape := ⟨3, ![4, 4096, 512]⟩
abbrev SW : Shape := ⟨2, ![512, 64]⟩
abbrev SO : Shape := ⟨3, ![4, 4096, 64]⟩

/-- (x·W)[b,t,h] -/
def proj (x : FVec Ideal SX .f32) (w : FVec Ideal SW .f32) (b : Fin 4) (t : Fin 4096) (h : Fin 64) : EReal :=
  ∑ c : Fin 512, x (ix3 b t c) * w (ix2 c h)

/-- the masked, scaled score: 0 on the diagonal, (q_t · k_s)/8 elsewhere -/
def score (x : FVec Ideal SX .f32) (wq wk : FVec Ideal SW .f32) (b : Fin 4) (t s : Fin 4096) : EReal :=
  if t = s then 0 else (∑ h : Fin 64, proj x wq b t h * proj x wk b s h) * Ideal.ofBits .f32 0x3E000000#32

/-- the largest score of row t -/
def rowMax (x : FVec Ideal SX .f32) (wq wk : FVec Ideal SW .f32) (b : Fin 4) (t : Fin 4096) : EReal :=
  Finset.univ.sup (fun s : Fin 4096 => score x wq wk b t s)

/-- exp (score − row maximum) -/
def ex (x : FVec Ideal SX .f32) (wq wk : FVec Ideal SW .f32) (b : Fin 4) (t s : Fin 4096) : EReal :=
  Ideal.exp (score x wq wk b t s - rowMax x wq wk b t)

/-- the softmax denominator of row t -/
def rowSum (x : FVec Ideal SX .f32) (wq wk : FVec Ideal SW .f32) (b : Fin 4) (t : Fin 4096) : EReal :=
  ∑ s : Fin 4096, ex x wq wk b t s

/-- softmax(score) · (x·Wv) -/
def G (x : FVec Ideal SX .f32) (wq wk wv : FVec Ideal SW .f32) : FVec Ideal SO .f32 := fun i =>
  ∑ s : Fin 4096, Ideal.div (ex x wq wk (i 0) (i 1) s) (rowSum x wq wk (i 0) (i 1)) * proj x wv (i 0) s (i 2)

end Cert.Spec
-- ==== Proof.RefValue.lean ====
import proofs.«163724_j46600395161875_2_alg».proof.Defs
import proofs.«163724_j46600395161875_2_alg».proof.Proof.Gen.ReferenceIdeal.Read
import proofs.«163724_j46600395161875_2_alg».proof.Proof.Gen.Pre_finite_inputs
import proofs.«163724_j46600395161875_2_alg».proof.Proof.Spec
import Idealize.ShloMosaic.Lib.Affine

/-! The reference program computes the specification G of Spec.lean: each stage of its run is read at an
index and identified with the corresponding entry-wise formula. -/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Spec

/-! ## The three projections -/

/-- The first projection at (b, t, h) is the sum over the model axis. -/
theorem v0_eq (x : FVec Ideal S4x4096x512 .f32) (w : FVec Ideal S512x64 .f32) (b : Fin 4) (t : Fin 4096) (h : Fin 64) :
    val_main_v0 (F := Ideal) x w (ix3 b t h) = proj x w b t h := by
  rw [val_main_v0_apply]
  unfold proj
  refine Finset.sum_congr rfl fun k _ => ?_
  have el : lidx_main_v0 (ix3 b t h) k = ix3 b t k := funext fun a => by
    match a with | ⟨0, _⟩ => rfl | ⟨1, _⟩ => rfl | ⟨2, _⟩ => rfl
  have er : ridx_main_v0 (ix3 b t h) k = ix2 k h := funext fun a => by
    match a with | ⟨0, _⟩ => rfl | ⟨1, _⟩ => rfl
  rw [el, er]

theorem v1_eq (x : FVec Ideal S4x4096x512 .f32) (w : FVec Ideal S512x64 .f32) (b : Fin 4) (t : Fin 4096) (h : Fin 64) :
    val_main_v1 (F := Ideal) x w (ix3 b t h) = proj x w b t h := by
  rw [val_main_v1_apply]
  unfold proj
  refine Finset.sum_congr rfl fun k _ => ?_
  have el : lidx_main_v1 (ix3 b t h) k = ix3 b t k := funext fun a => by
    match a with | ⟨0, _⟩ => rfl | ⟨1, _⟩ => rfl | ⟨2, _⟩ => rfl
  have er : ridx_main_v1 (ix3 b t h) k = ix2 k h := funext fun a => by
    match a with | ⟨0, _⟩ => rfl | ⟨1, _⟩ => rfl
  rw [el, er]

theorem v2_eq (x : FVec Ideal S4x4096x512 .f32) (w : FVec Ideal S512x64 .f32) (b : Fin 4) (t : Fin 4096) (h : Fin 64) :
    val_main_v2 (F := Ideal) x w (ix3 b t h) = proj x w b t h := by
  rw [val_main_v2_apply]
  unfold proj
  refine Finset.sum_congr rfl fun k _ => ?_
  have el : lidx_main_v2 (ix3 b t h) k = ix3 b t k := funext fun a => by
    match a with | ⟨0, _⟩ => rfl | ⟨1, _⟩ => rfl | ⟨2, _⟩ => rfl
  have er : ridx_main_v2 (ix3 b t h) k = ix2 k h := funext fun a => by
    match a with | ⟨0, _⟩ => rfl | ⟨1, _⟩ => rfl
  rw [el, er]

/-! ## The scores -/

/-- q·kᵀ at (b, t, s) is the sum over the head axis of the two projections' products. -/
theorem v3_eq (x : FVec Ideal S4x4096x512 .f32) (wq wk : FVec Ideal S512x64 .f32) (b : Fin 4) (t s : Fin 4096) :
    val_main_v3 (F := Ideal) x wq wk (ix3 b t s) = ∑ h : Fin 64, proj x wq b t h * proj x wk b s h := by
  rw [val_main_v3_apply]
  refine Finset.sum_congr rfl fun k _ => ?_
  have el : lidx_main_v3 (ix3 b t s) k = ix3 b t k := funext fun a => by
    match a with | ⟨0, _⟩ => rfl | ⟨1, _⟩ => rfl | ⟨2, _⟩ => rfl
  have er : ridx_main_v3 (ix3 b t s) k = ix3 b s k := funext fun a => by
    match a with | ⟨0, _⟩ => rfl | ⟨1, _⟩ => rfl | ⟨2, _⟩ => rfl
  rw [el, er, v0_eq, v1_eq]

/-- The scaled score. -/
theorem v5_eq (x : FVec Ideal S4x4096x512 .f32) (wq wk : FVec Ideal S512x64 .f32) (b : Fin 4) (t s : Fin 4096) :
    val_main_v5 (F := Ideal) x wq wk (ix3 b t s)
      = (∑ h : Fin 64, proj x wq b t h * proj x wk b s h) * Ideal.ofBits .f32 0x3E000000#32 := by
  rw [val_main_v5_apply, val_main_v4_apply, val_main_cst_apply, v3_eq]
  rfl

/-- The mask is the diagonal: row index plus zero equals column index exactly when t = s. -/
theorem mask_eq (b : Fin 4) (t s : Fin 4096) :
    val_main_call0_v0 (F := Ideal) (ix3 b t s) = 1#1 ↔ t = s := by
  rw [val_main_call0_v0_apply, val_main_v11_apply, val_main_v10_apply, val_main_v9_apply, val_main_v6_apply,
    val_main_v7_apply, val_main_v8_apply, val_main_c_apply, IntOp.cmpi_eq]
  show IntOp.addi (BitVec.ofNat 32 t.val) 0#32 = BitVec.ofNat 32 s.val ↔ t = s
  unfold IntOp.addi
  rw [BitVec.add_zero]
  constructor
  · intro e
    have := congrArg BitVec.toNat e
    simp only [BitVec.toNat_ofNat] at this
    have ht := t.isLt
    have hs := s.isLt
    apply Fin.ext
    omega
  · rintro rfl; rfl

/-- The word 0xFF800000 denotes −∞. -/
theorem ofBits_neg_inf : Ideal.ofBits .f32 0xFF800000#32 = (⊥ : EReal) := by
  simp [Ideal.ofBits, Ideal.ieee]

/-- The masked score is the specification's score. -/
theorem v12_eq (x : FVec Ideal S4x4096x512 .f32) (wq wk : FVec Ideal S512x64 .f32) (b : Fin 4) (t s : Fin 4096) :
    val_main_v12 (F := Ideal) x wq wk (ix3 b t s) = score x wq wk b t s := by
  rw [val_main_v12_apply, val_main_call0_v1_apply, val_main_cst_0_apply, v5_eq]
  unfold Scalar.select score
  by_cases hts : t = s
  · rw [if_pos (show val_main_call0_v0 (F := Ideal) (ix3 b t s) = 1 from (mask_eq b t s).2 hts), if_pos hts]
    exact Ideal.ofBits_zero_f32
  · rw [if_neg (show ¬ val_main_call0_v0 (F := Ideal) (ix3 b t s) = 1 from fun e => hts ((mask_eq b t s).1 e)),
      if_neg hts]

/-! ## The softmax -/

/-- The last axis of the score array is the one reduced. -/
theorem hred : S4x4096x4096.Reduces [2] S4x4096 := by decide

/-- The fold of the maximum from −∞ along the last axis is the supremum of the row. -/
theorem v13_eq (x : FVec Ideal S4x4096x512 .f32) (wq wk : FVec Ideal S512x64 .f32) (b : Fin 4) (t : Fin 4096) :
    val_main_v13 (F := Ideal) x wq wk (ix2 b t) = rowMax x wq wk b t := by
  have key := Host.reduce_eq_fold_single (FloatOps.maximumf (F := Ideal) (φ := .f32)) (val_main_v12 (F := Ideal) x wq wk)
    (val_main_cst_1 (F := Ideal)) reducesTo_S4x4096x4096_S4x4096_d2 hred h_S_ (ix2 b t)
  refine key.trans ?_
  have hf : (val_main_v12 (F := Ideal) x wq wk ∘ hred.lift (ix2 b t)) = fun s : Fin 4096 => score x wq wk b t s :=
    funext fun k => by
      show val_main_v12 (F := Ideal) x wq wk (hred.lift (ix2 b t) k) = _
      refine Eq.trans (congrArg _ ?_) (v12_eq x wq wk b t k)
      exact funext fun a => Fin.ext (by match a with | ⟨0, _⟩ => rfl | ⟨1, _⟩ => rfl | ⟨2, _⟩ => rfl)
  rw [hf, val_main_cst_1_apply]
  show Finset.fold (max : EReal → EReal → EReal) (Ideal.ofBits .f32 0xFF800000#32) (fun s : Fin 4096 => score x wq wk b t s)
    Finset.univ = _
  rw [ofBits_neg_inf]
  rfl

/-- The maximum with −∞ changes nothing: the row maximum. -/
theorem v15_eq (x : FVec Ideal S4x4096x512 .f32) (wq wk : FVec Ideal S512x64 .f32) (b : Fin 4) (t : Fin 4096) :
    val_main_v15 (F := Ideal) x wq wk (ix2 b t) = rowMax x wq wk b t := by
  rw [val_main_v15_apply, val_main_v14_apply, val_main_cst_2_apply, v13_eq]
  show max (Ideal.ofBits .f32 0xFF800000#32) (rowMax x wq wk b t) = _
  rw [ofBits_neg_inf]
  exact max_bot_left _

/-- The row maximum broadcast back along the last axis. -/
theorem v17_eq (x : FVec Ideal S4x4096x512 .f32) (wq wk : FVec Ideal S512x64 .f32) (b : Fin 4) (t s : Fin 4096) :
    val_main_v17 (F := Ideal) x wq wk (ix3 b t s) = rowMax x wq wk b t := by
  rw [val_main_v17_apply, val_main_v16_apply, ← v15_eq]
  exact congrArg _ (funext fun a => by match a with | ⟨0, _⟩ => rfl | ⟨1, _⟩ => rfl)

/-- exp (score − row maximum). -/
theorem v19_eq (x : FVec Ideal S4x4096x512 .f32) (wq wk : FVec Ideal S512x64 .f32) (b : Fin 4) (t s : Fin 4096) :
    val_main_v19 (F := Ideal) x wq wk (ix3 b t s) = ex x wq wk b t s := by
  rw [val_main_v19_apply, val_main_v18_apply, v12_eq, v17_eq]
  rfl

/-- The sum from 0 along the last axis is the softmax denominator. -/
theorem v20_eq (x : FVec Ideal S4x4096x512 .f32) (wq wk : FVec Ideal S512x64 .f32) (b : Fin 4) (t : Fin 4096) :
    val_main_v20 (F := Ideal) x wq wk (ix2 b t) = rowSum x wq wk b t := by
  rw [val_main_v20_apply, val_main_cst_3_apply]
  show Ideal.ofBits .f32 0x00000000#32 + _ = _
  rw [Ideal.ofBits_zero_f32, zero_add]
  unfold rowSum
  refine Finset.sum_congr rfl fun k _ => ?_
  rw [← v19_eq]
  exact congrArg _ (funext fun a => by match a with | ⟨0, _⟩ => rfl | ⟨1, _⟩ => rfl | ⟨2, _⟩ => rfl)

/-- The denominator broadcast back along the last axis. -/
theorem v22_eq (x : FVec Ideal S4x4096x512 .f32) (wq wk : FVec Ideal S512x64 .f32) (b : Fin 4) (t s : Fin 4096) :
    val_main_v22 (F := Ideal) x wq wk (ix3 b t s) = rowSum x wq wk b t := by
  rw [val_main_v22_apply, val_main_v21_apply, ← v20_eq]
  exact congrArg _ (funext fun a => by match a with | ⟨0, _⟩ => rfl | ⟨1, _⟩ => rfl)

/-- The softmax weight. -/
theorem v23_eq (x : FVec Ideal S4x4096x512 .f32) (wq wk : FVec Ideal S512x64 .f32) (b : Fin 4) (t s : Fin 4096) :
    val_main_v23 (F := Ideal) x wq wk (ix3 b t s) = Ideal.div (ex x wq wk b t s) (rowSum x wq wk b t) := by
  rw [val_main_v23_apply, v19_eq, v22_eq]
  rfl

/-! ## The result -/

/-- The reference's result stage is the specification. -/
theorem v24_eq (x : FVec Ideal S4x4096x512 .f32) (wq wk wv : FVec Ideal S512x64 .f32) :
    val_main_v24 (F := Ideal) x wq wk wv = G x wq wk wv := by
  funext i
  obtain ⟨b, t, h, rfl⟩ : ∃ b t h, i = ix3 b t h := ⟨i 0, i 1, i 2, eq_ix3 i⟩
  rw [val_main_v24_apply]
  unfold G
  refine Finset.sum_congr rfl fun k _ => ?_
  have el : lidx_main_v24 (ix3 b t h) k = ix3 b t k := funext fun a => by
    match a with | ⟨0, _⟩ => rfl | ⟨1, _⟩ => rfl | ⟨2, _⟩ => rfl
  have er : ridx_main_v24 (ix3 b t h) k = ix3 b k h := funext fun a => by
    match a with | ⟨0, _⟩ => rfl | ⟨1, _⟩ => rfl | ⟨2, _⟩ => rfl
  rw [el, er, v23_eq, v2_eq]

/-! ## The run -/

/-- The run's result term is the specification of the argument arrays. -/
theorem ref_eq (m : (ℓ : Loc nD τ sig) → Buf (Elt Ideal) ℓ) (c : Dev nD) :
    Cert.ReferenceIdeal.Value.res_main_v24 (F := Ideal) m c
      = G (m ((c.tc : Thread nD τ).loc main_arg0)) (m ((c.tc : Thread nD τ).loc main_arg1))
          (m ((c.tc : Thread nD τ).loc main_arg2)) (m ((c.tc : Thread nD τ).loc main_arg3)) :=
  (val_main_v24_eq m c).trans (v24_eq _ _ _ _)

/-- Every weakly fair execution of the reference ends with the specification of its arguments in the result
    array and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v24)
          = G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c => ⟨(h c).1.trans (ref_eq m' c), (h c).2⟩)
    (Cert.ReferenceIdeal.Value.run (F := Ideal) m' ρ')

/-- The reference runs to the end, faults nowhere and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The same run from a memory that agrees on the arguments with a memory m of the kernel's program: the result
    array ends at the specification of m's arguments. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v24)
          = G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (by rw [(hagree c).1, (hagree c).2.1, (hagree c).2.2.1, (hagree c).2.2.2]), (h c).2⟩)
    (ref_run m' g')

end Cert.ReferenceIdeal.RefValue

end
-- ==== Proof.KI.R1State.lean ====
/-
  Region 1's carried state, spelt out. The attention kernel keeps four scratch buffers across the key tiles of one
  (batch, query tile): the running row maximum m, the running row sum l, the accumulator acc, and the projected query
  tile q. At a point whose key-tile number is 0 the body first resets them (m = −∞, l = 0, acc = 0, q = x·Wq) and at
  every point it then folds the point's key / value tile in; at the last key tile the output block is acc / l.
  Here that recursion over the grid points, as a function of the input windows' blocks, in the body's own payload
  terms, for any float instance.
-/
import proofs.«163724_j46600395161875_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The carried state: (m, l, acc, q). -/
abbrev St (F : FTy → Type) [FloatOps F] : Type := Vec F S1024x1 .f32 × Vec F S1024x1 .f32 × Vec F S1024x64 .f32 × Vec F S1024x64 .bf16

/-- The reset at the first key tile: m = −∞, l = 0, acc = 0, q = the x block times Wq. -/
def init1 (xb : Vec F S1x1024x512 .f32) (wq : Vec F S512x64 .f32) : St F :=
  (k1_pay5, k1_pay6, k1_pay7, k1_pay8 xb wq)

/-- One key / value tile folded into the state. -/
def upd1 (i : grid1.Coords) (kb vb : Vec F S1x1024x64 .bf16) (s : St F) : St F :=
  (k1_pay3 (k1_pay11 i s.2.2.2 kb s.1),
   k1_pay1 (k1_pay14 i s.2.2.2 kb s.1 s.2.1) (k1_pay15 i s.2.2.2 kb s.1),
   k1_pay2 (k1_pay9 vb) (k1_pay12 i s.2.2.2 kb s.1) (k1_pay13 i s.2.2.2 kb s.1) s.2.2.1,
   s.2.2.2)

/-- The output block from a state: acc / l. -/
def outOf (s : St F) : Vec F S1x1024x64 .f32 := k1_pay4 s.2.2.1 s.2.1

/-- The state after the body at position n. -/
def st1 (c : Dev nD) : (n : ℕ) → n < cfg1.N → St F
  | 0, hn => upd1 (grid1.coords ⟨0, hn⟩) (iblk1 V c 1 ⟨0, hn⟩) (iblk1 V c 2 ⟨0, hn⟩) (init1 (iblk1 V c 0 ⟨0, hn⟩) (iblk1 V c 3 ⟨0, hn⟩))
  | n + 1, hn =>
    if (n + 1) % 4 = 0 then
      upd1 (grid1.coords ⟨n + 1, hn⟩) (iblk1 V c 1 ⟨n + 1, hn⟩) (iblk1 V c 2 ⟨n + 1, hn⟩) (init1 (iblk1 V c 0 ⟨n + 1, hn⟩) (iblk1 V c 3 ⟨n + 1, hn⟩))
    else
      upd1 (grid1.coords ⟨n + 1, hn⟩) (iblk1 V c 1 ⟨n + 1, hn⟩) (iblk1 V c 2 ⟨n + 1, hn⟩) (st1 c n (Nat.lt_of_succ_lt hn))

/-- At a first key tile: the reset, then the tile. -/
theorem st1_first (c : Dev nD) (t : Fin cfg1.N) (h : t.val % 4 = 0) :
    st1 V c t.val t.isLt = upd1 (grid1.coords t) (iblk1 V c 1 t) (iblk1 V c 2 t) (init1 (iblk1 V c 0 t) (iblk1 V c 3 t)) := by
  obtain ⟨n, hn⟩ := t
  cases n with
  | zero => rfl
  | succ n => exact if_pos h

/-- At a later key tile: the tile folded into what the point before left. -/
theorem st1_next (c : Dev nD) (t : Fin cfg1.N) (h : ¬t.val % 4 = 0) :
    st1 V c t.val t.isLt = upd1 (grid1.coords t) (iblk1 V c 1 t) (iblk1 V c 2 t)
      (st1 V c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Hand

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Online.lean ====
/-
  The online-softmax recurrence, on the extended reals.

  A row of scores is read tile by tile. After each tile one keeps the running maximum of the scores seen,
  the running sum of exponentials of (score - running maximum), and the running sum of those exponentials
  times the values. When the maximum moves from m to m' the two sums are rescaled by exp (m - m'), because
  exp (m - m') * exp (x - m) = exp (x - m'). For REAL scores and values (no infinities) the state after n >= 1
  tiles is therefore
      ( m_n ,  sum_{j<n,k} exp (s j k - m_n) ,  sum_{j<n,k} exp (s j k - m_n) * v j k ),
  all three real, and the quotient of the last two is the softmax-weighted sum of the values.

  Finiteness is what makes the rescaling distribute over the sums: the induction is done on real witnesses and
  coerced to the extended reals at the end. The first tile starts from (bot, 0, 0): exp (bot - m) = exp bot = 0,
  and 0 * 0 = 0.

  Nothing here mentions a program or a shape.
-/
import Mathlib.Data.EReal.Inv
import Mathlib.Analysis.SpecialFunctions.Exp
import Mathlib.Algebra.BigOperators.Fin
import Mathlib.Order.Fin.Basic
import Idealize.ShloMosaic.PureOps.Ideal
import proofs.«163724_j46600395161875_2_alg».proof.Proof.LibSumBlocks

noncomputable section

namespace Cert.Online

open Idealize.ShloMosaic
open Finset

variable {N : ℕ}

/-! ### The recurrence -/

/-- one tile: from the running (max, sum, accumulator) and the tile's scores s and values v -/
def step (s v : Fin N → EReal) (st : EReal × EReal × EReal) : EReal × EReal × EReal :=
  let mn := max st.1 (Finset.univ.sup s)
  let α := Ideal.exp (st.1 - mn)
  (mn, α * st.2.1 + ∑ k, Ideal.exp (s k - mn), α * st.2.2 + ∑ k, Ideal.exp (s k - mn) * v k)

/-- the state after the first n tiles, from (⊥, 0, 0) -/
def onl (s v : ℕ → Fin N → EReal) : ℕ → EReal × EReal × EReal
  | 0 => (⊥, 0, 0)
  | n + 1 => step (s n) (v n) (onl s v n)

/-! ### Small facts about real numbers inside the extended reals -/

/-- The inclusion of the reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of products of reals, computed in the extended reals, is the real sum of products. -/
theorem sum_coe_mul_coe {ι : Type*} (S : Finset ι) (a b : ι → ℝ) :
    ∑ c ∈ S, (a c : EReal) * (b c : EReal) = ((∑ c ∈ S, a c * b c : ℝ) : EReal) := by
  rw [coe_sum]
  exact Finset.sum_congr rfl fun c _ => (EReal.coe_mul _ _).symm

/-- The exponential of a real is the real exponential. -/
theorem exp_coe (r : ℝ) : Ideal.exp (r : EReal) = ((Real.exp r : ℝ) : EReal) := rfl

/-- The exponential of a real is positive. -/
theorem exp_coe_pos (r : ℝ) : (0 : EReal) < Ideal.exp (r : EReal) := by
  rw [exp_coe]; exact_mod_cast Real.exp_pos r

/-- The exponential of a difference of reals. -/
theorem exp_coe_sub (x m : ℝ) : Ideal.exp ((x : EReal) - (m : EReal)) = ((Real.exp (x - m) : ℝ) : EReal) := by
  rw [← EReal.coe_sub]; rfl

/-- The supremum of a nonempty finite family of reals is a real: the real supremum. -/
theorem sup_coe {ι : Type*} (S : Finset ι) (hS : S.Nonempty) (f : ι → ℝ) :
    S.sup (fun i => (f i : EReal)) = ((S.sup' hS f : ℝ) : EReal) := by
  rw [← Finset.sup'_eq_sup hS]
  exact (Finset.comp_sup'_eq_sup'_comp hS (fun x : ℝ => (x : EReal)) (fun x y => EReal.coe_strictMono.monotone.map_sup x y)).symm

/-- The supremum of a nonempty finite family of reals is a real. -/
theorem sup_coe_isReal {ι : Type*} (S : Finset ι) (hS : S.Nonempty) (f : ι → ℝ) :
    ∃ m : ℝ, S.sup (fun i => (f i : EReal)) = (m : EReal) := ⟨_, sup_coe S hS f⟩

/-- The inclusion of the reals commutes with the maximum of two. -/
theorem coe_max (x y : ℝ) : ((max x y : ℝ) : EReal) = max (x : EReal) (y : EReal) :=
  EReal.coe_strictMono.monotone.map_max

/-! ### One tile, on real witnesses -/

/-- The maximum of a nonempty tile of reals. -/
def tmax (hN : 0 < N) (s : Fin N → ℝ) : ℝ := Finset.univ.sup' ⟨⟨0, hN⟩, Finset.mem_univ _⟩ s

/-- The supremum of a nonempty tile of reals, in the extended reals, is its real maximum. -/
theorem sup_tile (hN : 0 < N) (s : Fin N → ℝ) :
    Finset.univ.sup (fun k => (s k : EReal)) = ((tmax hN s : ℝ) : EReal) := sup_coe _ _ s

/-- The first tile, from (⊥, 0, 0): the rescaling factor is exp ⊥ = 0, and 0 * 0 = 0. -/
theorem step_bot (hN : 0 < N) (s v : Fin N → ℝ) :
    step (fun k => (s k : EReal)) (fun k => (v k : EReal)) (⊥, 0, 0)
      = (((tmax hN s : ℝ) : EReal), ((∑ k, Real.exp (s k - tmax hN s) : ℝ) : EReal),
          ((∑ k, Real.exp (s k - tmax hN s) * v k : ℝ) : EReal)) := by
  simp only [step]
  rw [sup_tile hN s, max_bot_left, EReal.bot_sub, Ideal.exp_bot]
  simp only [zero_mul, zero_add, exp_coe_sub, sum_coe_mul_coe, ← coe_sum]

/-- A later tile, from a real state (m, l, a): the new maximum is real, and both sums are rescaled
    by the real factor exp (m - new maximum). -/
theorem step_coe (hN : 0 < N) (s v : Fin N → ℝ) (m l a : ℝ) :
    step (fun k => (s k : EReal)) (fun k => (v k : EReal)) ((m : EReal), (l : EReal), (a : EReal))
      = (((max m (tmax hN s) : ℝ) : EReal),
         ((Real.exp (m - max m (tmax hN s)) * l + ∑ k, Real.exp (s k - max m (tmax hN s)) : ℝ) : EReal),
         ((Real.exp (m - max m (tmax hN s)) * a + ∑ k, Real.exp (s k - max m (tmax hN s)) * v k : ℝ) : EReal)) := by
  simp only [step]
  rw [sup_tile hN s, ← coe_max]
  simp only [exp_coe_sub, sum_coe_mul_coe]
  rw [← coe_sum, ← EReal.coe_mul, ← EReal.coe_mul, ← EReal.coe_add, ← EReal.coe_add]

/-! ### Moving the maximum rescales the sums (real numbers) -/

/-- exp (m - m') * exp (x - m) = exp (x - m'), summed. -/
theorem rescale_sum {ι : Type*} (S : Finset ι) (m m' : ℝ) (x : ι → Fin N → ℝ) :
    Real.exp (m - m') * ∑ j ∈ S, ∑ k, Real.exp (x j k - m) = ∑ j ∈ S, ∑ k, Real.exp (x j k - m') := by
  rw [Finset.mul_sum]
  refine Finset.sum_congr rfl fun j _ => ?_
  rw [Finset.mul_sum]
  refine Finset.sum_congr rfl fun k _ => ?_
  rw [← Real.exp_add]
  congr 1
  ring

/-- The same with weights. -/
theorem rescale_sum_mul {ι : Type*} (S : Finset ι) (m m' : ℝ) (x w : ι → Fin N → ℝ) :
    Real.exp (m - m') * ∑ j ∈ S, ∑ k, Real.exp (x j k - m) * w j k
      = ∑ j ∈ S, ∑ k, Real.exp (x j k - m') * w j k := by
  rw [Finset.mul_sum]
  refine Finset.sum_congr rfl fun j _ => ?_
  rw [Finset.mul_sum]
  refine Finset.sum_congr rfl fun k _ => ?_
  rw [← mul_assoc, ← Real.exp_add]
  congr 2
  ring

/-! ### The running maximum and the closed form of the state -/

/-- The maximum of the scores of tiles 0, …, n. -/
def rmax (hN : 0 < N) (s : ℕ → Fin N → ℝ) : ℕ → ℝ
  | 0 => tmax hN (s 0)
  | n + 1 => max (rmax hN s n) (tmax hN (s (n + 1)))

/-- The running maximum is the supremum, in the extended reals, of all scores of tiles 0, …, n. -/
theorem rmax_eq_sup (hN : 0 < N) (s : ℕ → Fin N → ℝ) (n : ℕ) :
    ((rmax hN s n : ℝ) : EReal)
      = (Finset.range (n + 1)).sup (fun j => Finset.univ.sup (fun k => ((s j k : ℝ) : EReal))) := by
  induction n with
  | zero =>
    rw [Finset.range_one, Finset.sup_singleton, sup_tile hN]
    rfl
  | succ n ih =>
    rw [Finset.range_add_one, Finset.sup_insert, ← ih, sup_tile hN, sup_comm]
    exact coe_max _ _

/-- The state after n + 1 tiles of real scores and values: the running maximum, the sum of the exponentials
    of (score - running maximum), and the sum of those exponentials times the values; all three real. -/
theorem onl_succ (hN : 0 < N) (s v : ℕ → Fin N → ℝ) (n : ℕ) :
    onl (fun j k => ((s j k : ℝ) : EReal)) (fun j k => ((v j k : ℝ) : EReal)) (n + 1)
      = (((rmax hN s n : ℝ) : EReal),
         ((∑ j ∈ Finset.range (n + 1), ∑ k, Real.exp (s j k - rmax hN s n) : ℝ) : EReal),
         ((∑ j ∈ Finset.range (n + 1), ∑ k, Real.exp (s j k - rmax hN s n) * v j k : ℝ) : EReal)) := by
  induction n with
  | zero =>
    refine (step_bot hN (s 0) (v 0)).trans ?_
    rw [Finset.sum_range_one, Finset.sum_range_one]
    rfl
  | succ n ih =>
    show step _ _ (onl _ _ (n + 1)) = _
    rw [ih]
    refine (step_coe hN (s (n + 1)) (v (n + 1)) _ _ _).trans ?_
    rw [rescale_sum, rescale_sum_mul, Finset.sum_range_succ _ (n + 1), Finset.sum_range_succ _ (n + 1)]
    rfl

/-! ### The quotient -/

/-- A supremum over the naturals below n is the supremum over Fin n. -/
theorem sup_range_eq_sup_fin {α : Type*} [SemilatticeSup α] [OrderBot α] (n : ℕ) (F : ℕ → α) :
    (Finset.range n).sup F = Finset.univ.sup (fun j : Fin n => F j) := by
  refine le_antisymm (Finset.sup_le fun j hj => ?_)
    (Finset.sup_le fun j _ => Finset.le_sup (Finset.mem_range.mpr j.isLt))
  exact Finset.le_sup (f := fun j : Fin n => F j) (Finset.mem_univ ⟨j, Finset.mem_range.mp hj⟩)

/-- MAIN THEOREM: after J ≥ 1 tiles of N ≥ 1 real scores and real values, accumulator / sum is the
    softmax-weighted sum of the values. -/
theorem onl_div (J : ℕ) (hJ : 0 < J) (hN : 0 < N) (s v : ℕ → Fin N → ℝ) :
    let M : EReal := Finset.univ.sup (fun j : Fin J => Finset.univ.sup (fun k : Fin N => ((s j k : ℝ) : EReal)))
    let Z : EReal := ∑ j : Fin J, ∑ k : Fin N, Ideal.exp ((s j k : EReal) - M)
    Ideal.div (onl (fun j k => (s j k : EReal)) (fun j k => (v j k : EReal)) J).2.2
        (onl (fun j k => (s j k : EReal)) (fun j k => (v j k : EReal)) J).2.1
      = ∑ j : Fin J, ∑ k : Fin N, Ideal.div (Ideal.exp ((s j k : EReal) - M)) Z * (v j k : EReal) := by
  obtain ⟨n, rfl⟩ : ∃ n, J = n + 1 := ⟨J - 1, by omega⟩
  intro M Z
  have hM : M = ((rmax hN s n : ℝ) : EReal) := by
    rw [rmax_eq_sup, sup_range_eq_sup_fin]
  have hZ : Z = ((∑ j ∈ Finset.range (n + 1), ∑ k, Real.exp (s j k - rmax hN s n) : ℝ) : EReal) := by
    show (∑ j : Fin (n + 1), ∑ k : Fin N, Ideal.exp ((s j k : EReal) - M)) = _
    rw [hM, Finset.sum_range, coe_sum]
    refine Finset.sum_congr rfl fun j _ => ?_
    rw [coe_sum]
    exact Finset.sum_congr rfl fun k _ => exp_coe_sub _ _
  have hZpos : 0 < ∑ j ∈ Finset.range (n + 1), ∑ k, Real.exp (s j k - rmax hN s n) :=
    Finset.sum_pos (fun j _ => Finset.sum_pos (fun k _ => Real.exp_pos _) ⟨⟨0, hN⟩, Finset.mem_univ _⟩)
      ⟨0, Finset.mem_range.mpr (Nat.succ_pos n)⟩
  rw [onl_succ hN s v n, hZ, hM]
  simp only [Ideal.div_coe hZpos.ne', exp_coe_sub, ← EReal.coe_mul, ← coe_sum]
  congr 1
  rw [Finset.sum_range, Finset.sum_mul]
  refine Finset.sum_congr rfl fun j _ => ?_
  rw [Finset.sum_mul]
  refine Finset.sum_congr rfl fun k _ => ?_
  ring

end Cert.Online
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.Val.R1Point.lean ====
/-
  The attention kernel's arithmetic, entry by entry, on the extended reals.

  Each value the kernel's body computes between its loads and stores is read here at one index: a query row r, a key
  position k of the current tile, a head column h. The masked score of (r, k) is 0 where the global row number
  1024 * (query tile) + r equals the global column number 1024 * (key tile) + k, and otherwise the row-by-row product
  of the projected query and the key tile times the scale 1/8 (the two numbers are 32-bit words built from
  coordinates below 4 and positions below 1024, so they are equal as words exactly when they are equal as naturals).
  The new row maximum is the larger of the old one and the supremum of the row's masked scores (a fold of max from
  the least element is the supremum); the rescaling factor is exp (old maximum - new maximum); the tile's weights
  are exp (score - new maximum); the new row sum is factor * old sum + the sum of the weights; the new accumulator
  entry is factor * old entry + the sum of weight * value. Together these are exactly one step of the online-softmax
  recurrence on the row's scores and the column's values. The reset state is (least element, 0, 0, x · Wq), and the
  output entry is accumulator / row sum.

  Format changes are the identity on the extended reals, a shape cast between equal shapes is the identity, a cast
  that adds or drops a unit axis and a column broadcast read through by coordinates, and a matrix product into a
  zero accumulator is the finite sum of products.
-/
import proofs.«163724_j46600395161875_2_alg».proof.Proof.KI.R1State
import proofs.«163724_j46600395161875_2_alg».proof.Proof.Online
import proofs.«163724_j46600395161875_2_alg».proof.Proof.LibDense
import proofs.«163724_j46600395161875_2_alg».proof.Proof.LibDotNT
import proofs.«163724_j46600395161875_2_alg».proof.Proof.LibSoftmaxRow
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen Cert.KernelIdeal.Hand

/-- A cast between equal shapes is the identity. -/
theorem pay3_eq (x : FVec Ideal S1024x1 .f32) : k1_pay3 (F := Ideal) x = x := shapeCast_self _ _

/-- The new row sum's two parts are added. -/
theorem pay1_apply (a b : FVec Ideal S1024x1 .f32) (r : Fin 1024) :
    k1_pay1 (F := Ideal) a b (ix2 r (0 : Fin 1)) = a (ix2 r 0) + b (ix2 r 0) := by
  unfold k1_pay1
  rw [shapeCast_self]
  rfl

/-- The reset running maximum is the least extended real. -/
theorem pay5_apply (r : Fin 1024) : k1_pay5 (F := Ideal) (ix2 r (0 : Fin 1)) = ⊥ := by
  unfold k1_pay5
  rw [shapeCast_self]
  exact Cert.LibSoftmaxRow.ofBits_negInf

/-- The reset running sum is zero. -/
theorem pay6_apply (r : Fin 1024) : k1_pay6 (F := Ideal) (ix2 r (0 : Fin 1)) = 0 := by
  unfold k1_pay6
  rw [shapeCast_self]
  exact Ideal.ofBits_zero_f32

/-- The reset accumulator is zero. -/
theorem pay7_apply (r : Fin 1024) (h : Fin 64) : k1_pay7 (F := Ideal) (ix2 r h) = 0 := by
  unfold k1_pay7
  rw [shapeCast_self]
  exact Ideal.ofBits_zero_f32

/-- The value tile with its unit axis dropped. -/
theorem pay9_apply (vb : Vec Ideal S1x1024x64 .bf16) (k : Fin 1024) (h : Fin 64) :
    k1_pay9 (F := Ideal) vb (ix2 k h) = vb (ix3 (0 : Fin 1) k h) := by
  unfold k1_pay9
  exact shapeCast_1ab_ab_apply _ _ k h

/-- The projected query tile: row r of the x block against column h of Wq. -/
theorem pay8_apply (xb : Vec Ideal S1x1024x512 .f32) (wq : Vec Ideal S512x64 .f32) (r : Fin 1024) (h : Fin 64) :
    k1_pay8 (F := Ideal) xb wq (ix2 r h) = ∑ c : Fin 512, xb (ix3 (0 : Fin 1) r c) * wq (ix2 c h) := by
  unfold k1_pay8
  rw [shapeCast_self]
  refine (Cert.LibDense.matmul_plain (M := 1024) (K := 512) (N := 64) _ _ (ix2 r h)).trans ?_
  refine Finset.sum_congr rfl fun c _ => ?_
  exact congrArg₂ (· * ·) (shapeCast_1ab_ab_apply xb _ r c) rfl

/-- The two row/column numbers agree as 32-bit words exactly when they agree as naturals: nothing wraps. -/
theorem mask_iff (a b r k : ℕ) (ha : a < 4) (hb : b < 4) (hr : r < 1024) (hk : k < 1024) :
    IntOp.cmpi .eq (IntOp.addi (Scalar.muli (BitVec.ofNat 32 a) 1024#32) (BitVec.ofNat 32 r))
        (IntOp.addi (Scalar.muli (BitVec.ofNat 32 b) 1024#32) (BitVec.ofNat 32 k)) = 1#1
      ↔ 1024 * a + r = 1024 * b + k := by
  have key : ∀ (x y : BitVec 32), (BitVec.ofBool (x == y) = 1#1) ↔ x = y := by
    intro x y
    by_cases h : x = y
    · simp [h]
    · have hb : (x == y) = false := beq_eq_false_iff_ne.mpr h
      rw [hb]; exact iff_of_false (by decide) h
  show BitVec.ofBool (_ == _) = 1#1 ↔ _
  rw [key, ← BitVec.toNat_inj]
  simp only [IntOp.addi, Scalar.muli, IntOp.muli, BitVec.toNat_add, BitVec.toNat_mul, BitVec.toNat_ofNat]
  omega

/-- The masked, scaled score of query row r against key position k. -/
theorem pay10_apply (i : grid1.Coords) (q : Vec Ideal S1024x64 .bf16) (kb : Vec Ideal S1x1024x64 .bf16) (r k : Fin 1024) :
    k1_pay10 (F := Ideal) i q kb (ix2 r k)
      = if 1024 * (i 1).val + r.val = 1024 * (i 2).val + k.val then 0
        else (∑ h : Fin 64, q (ix2 r h) * kb (ix3 (0 : Fin 1) k h)) * Ideal.ofBits .f32 0x3E000000#32 := by
  unfold k1_pay10
  refine if_congr ?_ ?_ ?_
  · show IntOp.cmpi .eq (IntOp.addi (Scalar.muli (BitVec.ofNat 32 (i 1).val) 1024#32) (iota .tc S1024x1024 32 [0] iota_S1024x1024_d0_w32 (ix2 r k)))
        (IntOp.addi (Scalar.muli (BitVec.ofNat 32 (i 2).val) 1024#32) (iota .tc S1024x1024 32 [1] iota_S1024x1024_d1_w32 (ix2 r k))) = 1#1 ↔ _
    rw [iota_single_apply, iota_single_apply]
    exact mask_iff _ _ _ _ (i 1).isLt (i 2).isLt r.isLt k.isLt
  · exact Ideal.ofBits_zero_f32
  · refine congrArg (· * Ideal.ofBits .f32 0x3E000000#32) ?_
    refine (Cert.LibDotNT.matmul_tr (M := 1024) (K := 64) (N := 1024) _ _ (ix2 r k)).trans ?_
    exact Finset.sum_congr rfl fun h _ => congrArg₂ (· * ·) rfl (shapeCast_1ab_ab_apply kb _ k h)

/-- The new row maximum: the old one against the supremum of the row's masked scores. -/
theorem pay11_apply (i : grid1.Coords) (q : Vec Ideal S1024x64 .bf16) (kb : Vec Ideal S1x1024x64 .bf16)
    (m : Vec Ideal S1024x1 .f32) (r : Fin 1024) :
    k1_pay11 (F := Ideal) i q kb m (ix2 r (0 : Fin 1))
      = max (m (ix2 r 0)) (Finset.univ.sup fun k : Fin 1024 => k1_pay10 (F := Ideal) i q kb (ix2 r k)) := by
  unfold k1_pay11
  show max (m (ix2 r 0)) _ = _
  refine congrArg (max (m (ix2 r 0))) ?_
  refine (Cert.LibSoftmaxRow.shapeCast_a_a1_apply _ _ r 0).trans ?_
  refine (Cert.LibSoftmaxRow.multiReduction_max_row _ _ _ _ _ r).trans ?_
  unfold Cert.LibSoftmaxRow.rowMax
  rw [Cert.LibSoftmaxRow.ofBits_negInf]
  rfl

/-- The rescaling factor: exp (old maximum - new maximum). -/
theorem pay12_apply (i : grid1.Coords) (q : Vec Ideal S1024x64 .bf16) (kb : Vec Ideal S1x1024x64 .bf16)
    (m : Vec Ideal S1024x1 .f32) (r : Fin 1024) :
    k1_pay12 (F := Ideal) i q kb m (ix2 r (0 : Fin 1))
      = Ideal.exp (m (ix2 r 0) - k1_pay11 (F := Ideal) i q kb m (ix2 r 0)) := rfl

/-- The tile's weights: exp (score - new maximum). -/
theorem pay13_apply (i : grid1.Coords) (q : Vec Ideal S1024x64 .bf16) (kb : Vec Ideal S1x1024x64 .bf16)
    (m : Vec Ideal S1024x1 .f32) (r k : Fin 1024) :
    k1_pay13 (F := Ideal) i q kb m (ix2 r k)
      = Ideal.exp (k1_pay10 (F := Ideal) i q kb (ix2 r k) - k1_pay11 (F := Ideal) i q kb m (ix2 r (0 : Fin 1))) := by
  unfold k1_pay13
  exact congrArg (fun z => Ideal.exp (k1_pay10 (F := Ideal) i q kb (ix2 r k) - z))
    (Cert.LibSoftmaxRow.broadcastTo_a1_ab_apply _ _ r k)

/-- The old row sum rescaled. -/
theorem pay14_apply (i : grid1.Coords) (q : Vec Ideal S1024x64 .bf16) (kb : Vec Ideal S1x1024x64 .bf16)
    (m l : Vec Ideal S1024x1 .f32) (r : Fin 1024) :
    k1_pay14 (F := Ideal) i q kb m l (ix2 r (0 : Fin 1))
      = k1_pay12 (F := Ideal) i q kb m (ix2 r 0) * l (ix2 r 0) := rfl

/-- The sum of the tile's weights along the row. -/
theorem pay15_apply (i : grid1.Coords) (q : Vec Ideal S1024x64 .bf16) (kb : Vec Ideal S1x1024x64 .bf16)
    (m : Vec Ideal S1024x1 .f32) (r : Fin 1024) :
    k1_pay15 (F := Ideal) i q kb m (ix2 r (0 : Fin 1))
      = ∑ k : Fin 1024, k1_pay13 (F := Ideal) i q kb m (ix2 r k) := by
  unfold k1_pay15
  refine (Cert.LibSoftmaxRow.shapeCast_a_a1_apply _ _ r 0).trans ?_
  exact Cert.LibSoftmaxRow.multiReduction_add_row _ _ _ _ _ r

/-- The new accumulator entry: the old one rescaled plus the weights against the value column. -/
theorem pay2_apply (v : FVec Ideal S1024x64 .bf16) (α : FVec Ideal S1024x1 .f32) (p : FVec Ideal S1024x1024 .f32)
    (acc : Vec Ideal S1024x64 .f32) (r : Fin 1024) (h : Fin 64) :
    k1_pay2 (F := Ideal) v α p acc (ix2 r h)
      = α (ix2 r (0 : Fin 1)) * acc (ix2 r h) + ∑ k : Fin 1024, p (ix2 r k) * v (ix2 k h) := by
  unfold k1_pay2
  rw [shapeCast_self]
  refine congrArg₂ (· + ·) ?_ ?_
  · exact congrArg (· * acc (ix2 r h)) (Cert.LibSoftmaxRow.broadcastTo_a1_ab_apply _ _ r h)
  · exact Cert.LibDense.matmul_plain (M := 1024) (K := 1024) (N := 64) _ _ (ix2 r h)

/-- The output entry: accumulator over row sum. -/
theorem pay4_apply (acc : Vec Ideal S1024x64 .f32) (l : Vec Ideal S1024x1 .f32) (r : Fin 1024) (h : Fin 64) :
    k1_pay4 (F := Ideal) acc l (ix3 (0 : Fin 1) r h) = Ideal.div (acc (ix2 r h)) (l (ix2 r (0 : Fin 1))) := by
  unfold k1_pay4
  refine (shapeCast_ab_1ab_apply _ _ 0 r h).trans ?_
  exact congrArg (Ideal.div (acc (ix2 r h))) (Cert.LibSoftmaxRow.broadcastTo_a1_ab_apply _ _ r h)

/-- Folding a tile in leaves the projected query tile as it was. -/
theorem upd1_q (i : grid1.Coords) (kb vb : Vec Ideal S1x1024x64 .bf16) (s : St Ideal) :
    (upd1 i kb vb s).2.2.2 = s.2.2.2 := rfl

/-- Folding a key / value tile into the state is, at row r and column h, one step of the online-softmax recurrence on
    the row's masked scores and the column's values. -/
theorem upd1_step (i : grid1.Coords) (kb vb : Vec Ideal S1x1024x64 .bf16) (s : St Ideal) (r : Fin 1024) (h : Fin 64) :
    ((upd1 i kb vb s).1 (ix2 r (0 : Fin 1)), (upd1 i kb vb s).2.1 (ix2 r (0 : Fin 1)), (upd1 i kb vb s).2.2.1 (ix2 r h))
      = Cert.Online.step (fun k : Fin 1024 => k1_pay10 (F := Ideal) i s.2.2.2 kb (ix2 r k))
          (fun k : Fin 1024 => vb (ix3 (0 : Fin 1) k h)) (s.1 (ix2 r 0), s.2.1 (ix2 r 0), s.2.2.1 (ix2 r h)) := by
  have h11 := pay11_apply i s.2.2.2 kb s.1 r
  have h12 : k1_pay12 (F := Ideal) i s.2.2.2 kb s.1 (ix2 r (0 : Fin 1))
      = Ideal.exp (s.1 (ix2 r 0) - max (s.1 (ix2 r 0)) (Finset.univ.sup fun k : Fin 1024 => k1_pay10 (F := Ideal) i s.2.2.2 kb (ix2 r k))) := by
    rw [pay12_apply, h11]
  have h13 : ∀ k : Fin 1024, k1_pay13 (F := Ideal) i s.2.2.2 kb s.1 (ix2 r k)
      = Ideal.exp (k1_pay10 (F := Ideal) i s.2.2.2 kb (ix2 r k)
          - max (s.1 (ix2 r 0)) (Finset.univ.sup fun k : Fin 1024 => k1_pay10 (F := Ideal) i s.2.2.2 kb (ix2 r k))) := by
    intro k; rw [pay13_apply, h11]
  refine Prod.ext ?_ (Prod.ext ?_ ?_)
  · show k1_pay3 (F := Ideal) (k1_pay11 i s.2.2.2 kb s.1) (ix2 r (0 : Fin 1)) = _
    rw [pay3_eq, h11]
    rfl
  · show k1_pay1 (F := Ideal) (k1_pay14 i s.2.2.2 kb s.1 s.2.1) (k1_pay15 i s.2.2.2 kb s.1) (ix2 r (0 : Fin 1)) = _
    rw [pay1_apply, pay14_apply, pay15_apply, h12]
    simp only [h13]
    rfl
  · show k1_pay2 (F := Ideal) (k1_pay9 vb) (k1_pay12 i s.2.2.2 kb s.1) (k1_pay13 i s.2.2.2 kb s.1) s.2.2.1 (ix2 r h) = _
    rw [pay2_apply, h12]
    simp only [h13, pay9_apply]
    rfl

/-- The reset state, entry by entry. -/
theorem init1_apply (xb : Vec Ideal S1x1024x512 .f32) (wq : Vec Ideal S512x64 .f32) (r : Fin 1024) (h : Fin 64) :
    (init1 xb wq).1 (ix2 r (0 : Fin 1)) = ⊥ ∧ (init1 xb wq).2.1 (ix2 r (0 : Fin 1)) = 0
      ∧ (init1 xb wq).2.2.1 (ix2 r h) = 0
      ∧ (init1 xb wq).2.2.2 (ix2 r h) = ∑ c : Fin 512, xb (ix3 (0 : Fin 1) r c) * wq (ix2 c h) :=
  ⟨pay5_apply r, pay6_apply r, pay7_apply r h, pay8_apply xb wq r h⟩

/-- The output block from a state, entry by entry. -/
theorem outOf_apply (s : St Ideal) (r : Fin 1024) (h : Fin 64) :
    outOf s (ix3 (0 : Fin 1) r h) = Ideal.div (s.2.2.1 (ix2 r h)) (s.2.1 (ix2 r (0 : Fin 1))) :=
  pay4_apply s.2.2.1 s.2.1 r h

end Cert.KernelIdeal.Val

end
-- ==== Proof.Online2.lean ====
/-
  The online-softmax quotient over one flat index.

  A row of J * N real scores f and values g is cut into J tiles of N: position k of tile j is index j * N + k.
  The supremum over the flat index is the supremum of the tiles' suprema, and a sum over the flat index is the
  double sum over tiles and positions; so the quotient of the online recurrence over the tiles is the softmax of
  the flat row, weighted sum of the flat values.
-/
import proofs.«163724_j46600395161875_2_alg».proof.Proof.Online

noncomputable section

namespace Cert.Online

open Idealize.ShloMosaic
open Finset

variable {N : ℕ}

/-- A supremum over Fin (a * b), block by block: the index is x * b + y. -/
theorem sup_fin_blocks {α : Type*} [SemilatticeSup α] [OrderBot α] (a b : ℕ) (F : Fin (a * b) → α) :
    Finset.univ.sup F
      = Finset.univ.sup (fun x : Fin a => Finset.univ.sup (fun y : Fin b =>
          F ⟨x.val * b + y.val, Cert.SumBlocks.block_lt x y⟩)) := by
  rw [← Finset.univ_map_equiv_to_embedding (finProdFinEquiv (m := a) (n := b)), Finset.sup_map,
    ← Finset.univ_product_univ, Finset.sup_product_left]
  refine Finset.sup_congr rfl fun x _ => Finset.sup_congr rfl fun y _ => ?_
  show F (finProdFinEquiv (x, y)) = _
  refine congrArg F (Fin.ext ?_)
  show y.val + b * x.val = x.val * b + y.val
  rw [Nat.mul_comm, Nat.add_comm]

/-- Tile j of a flat row of J * N reals: position k of tile j is index j * N + k; tiles from J on are 0. -/
def tileOf {J : ℕ} (f : Fin (J * N) → ℝ) : ℕ → Fin N → ℝ :=
  fun j k => if h : j < J then f ⟨j * N + k.val, Cert.SumBlocks.block_lt ⟨j, h⟩ k⟩ else 0

/-- Below J the tile reads the flat row. -/
theorem tileOf_fin {J : ℕ} (f : Fin (J * N) → ℝ) (j : Fin J) (k : Fin N) :
    tileOf f j.val k = f ⟨j.val * N + k.val, Cert.SumBlocks.block_lt j k⟩ := dif_pos j.isLt

/-- COROLLARY over one flat index. -/
theorem onl_div_flat (J : ℕ) (hJ : 0 < J) (hN : 0 < N) (f g : Fin (J * N) → ℝ) :
    let M : EReal := Finset.univ.sup (fun i : Fin (J * N) => ((f i : ℝ) : EReal))
    let Z : EReal := ∑ i : Fin (J * N), Ideal.exp ((f i : EReal) - M)
    Ideal.div (onl (fun j k => (tileOf f j k : EReal)) (fun j k => (tileOf g j k : EReal)) J).2.2
        (onl (fun j k => (tileOf f j k : EReal)) (fun j k => (tileOf g j k : EReal)) J).2.1
      = ∑ i : Fin (J * N), Ideal.div (Ideal.exp ((f i : EReal) - M)) Z * (g i : EReal) := by
  intro M Z
  have hM : M = Finset.univ.sup (fun j : Fin J => Finset.univ.sup (fun k : Fin N =>
      ((tileOf f j k : ℝ) : EReal))) := by
    show Finset.univ.sup (fun i : Fin (J * N) => ((f i : ℝ) : EReal)) = _
    rw [sup_fin_blocks J N]
    simp only [tileOf_fin]
  have hZ : Z = ∑ j : Fin J, ∑ k : Fin N, Ideal.exp ((tileOf f j k : EReal) - M) := by
    show (∑ i : Fin (J * N), Ideal.exp ((f i : EReal) - M)) = _
    rw [Cert.SumBlocks.sum_fin_blocks J N rfl]
    simp only [tileOf_fin]
  have key := onl_div J hJ hN (tileOf f) (tileOf g)
  dsimp only at key
  rw [← hM, ← hZ] at key
  rw [key, Cert.SumBlocks.sum_fin_blocks J N rfl]
  simp only [tileOf_fin]

/-! ### Further facts for users of the recurrence -/

/-- The state after n tiles depends only on tiles 0, …, n - 1. -/
theorem onl_congr (s v s' v' : ℕ → Fin N → EReal) (n : ℕ) (hs : ∀ j < n, s j = s' j)
    (hv : ∀ j < n, v j = v' j) : onl s v n = onl s' v' n := by
  induction n with
  | zero => rfl
  | succ n ih =>
    show step (s n) (v n) (onl s v n) = step (s' n) (v' n) (onl s' v' n)
    rw [hs n (Nat.lt_succ_self n), hv n (Nat.lt_succ_self n),
      ih (fun j hj => hs j (Nat.lt_succ_of_lt hj)) (fun j hj => hv j (Nat.lt_succ_of_lt hj))]

/-- A nonempty finite sum of exponentials of (real - real) is a positive real. -/
theorem sum_exp_sub_isPosReal {ι : Type*} (S : Finset ι) (hS : S.Nonempty) (f : ι → ℝ) (m : ℝ) :
    ∃ z : ℝ, 0 < z ∧ ∑ i ∈ S, Ideal.exp ((f i : EReal) - (m : EReal)) = (z : EReal) :=
  ⟨∑ i ∈ S, Real.exp (f i - m), Finset.sum_pos (fun i _ => Real.exp_pos _) hS, by
    rw [coe_sum]; exact Finset.sum_congr rfl fun i _ => exp_coe_sub _ _⟩

/-- The quotient after n + 1 tiles as one real number: the real weighted sum over the real sum. -/
theorem onl_div_coe (hN : 0 < N) (s v : ℕ → Fin N → ℝ) (n : ℕ) :
    Ideal.div (onl (fun j k => (s j k : EReal)) (fun j k => (v j k : EReal)) (n + 1)).2.2
        (onl (fun j k => (s j k : EReal)) (fun j k => (v j k : EReal)) (n + 1)).2.1
      = (((∑ j ∈ Finset.range (n + 1), ∑ k, Real.exp (s j k - rmax hN s n) * v j k)
          / (∑ j ∈ Finset.range (n + 1), ∑ k, Real.exp (s j k - rmax hN s n)) : ℝ) : EReal) := by
  have hZpos : 0 < ∑ j ∈ Finset.range (n + 1), ∑ k, Real.exp (s j k - rmax hN s n) :=
    Finset.sum_pos (fun j _ => Finset.sum_pos (fun k _ => Real.exp_pos _) ⟨⟨0, hN⟩, Finset.mem_univ _⟩)
      ⟨0, Finset.mem_range.mpr (Nat.succ_pos n)⟩
  rw [onl_succ hN s v n]
  simp only [Ideal.div_coe hZpos.ne', ← EReal.coe_mul]
  congr 1
  exact (div_eq_mul_one_div _ _).symm

end Cert.Online
-- ==== Proof.Val.R1Chain.lean ====
/-
  Four key tiles in a row. Starting from the reset state and folding four key / value tiles in, the entries
  (m, l, acc) of the carried state at row r and column h are the online-softmax recurrence after four tiles, run on
  that row's masked scores against the query tile projected at the reset, and on column h of the value tiles.
-/
import proofs.«163724_j46600395161875_2_alg».proof.Proof.Val.R1Point
import proofs.«163724_j46600395161875_2_alg».proof.Proof.Online2

set_option maxRecDepth 16384

noncomputable section

namespace Cert.KernelIdeal.Val

open Idealize.ShloMosaic Idealize.ShloMosaic.ValueIdx Idealize.SL.Sem
open Cert.KernelIdeal Cert.KernelIdeal.Gen Cert.KernelIdeal.Hand

/-- The tile-indexed family picked from four given tiles (anything beyond the fourth repeats the fourth). -/
def pick4 {α : Type} (a0 a1 a2 a3 : α) : ℕ → α
  | 0 => a0
  | 1 => a1
  | 2 => a2
  | _ => a3

theorem chain4 (i0 i1 i2 i3 : grid1.Coords) (xb : Vec Ideal S1x1024x512 .f32) (wqb : Vec Ideal S512x64 .f32)
    (kb0 vb0 kb1 vb1 kb2 vb2 kb3 vb3 : Vec Ideal S1x1024x64 .bf16) (r : Fin 1024) (h : Fin 64) :
    ((upd1 i3 kb3 vb3 (upd1 i2 kb2 vb2 (upd1 i1 kb1 vb1 (upd1 i0 kb0 vb0 (init1 xb wqb))))).1 (ix2 r (0 : Fin 1)),
     (upd1 i3 kb3 vb3 (upd1 i2 kb2 vb2 (upd1 i1 kb1 vb1 (upd1 i0 kb0 vb0 (init1 xb wqb))))).2.1 (ix2 r (0 : Fin 1)),
     (upd1 i3 kb3 vb3 (upd1 i2 kb2 vb2 (upd1 i1 kb1 vb1 (upd1 i0 kb0 vb0 (init1 xb wqb))))).2.2.1 (ix2 r h))
      = Cert.Online.onl
          (pick4 (fun k : Fin 1024 => k1_pay10 (F := Ideal) i0 (init1 xb wqb).2.2.2 kb0 (ix2 r k)) (fun k => k1_pay10 (F := Ideal) i1 (init1 xb wqb).2.2.2 kb1 (ix2 r k))
            (fun k => k1_pay10 (F := Ideal) i2 (init1 xb wqb).2.2.2 kb2 (ix2 r k)) (fun k => k1_pay10 (F := Ideal) i3 (init1 xb wqb).2.2.2 kb3 (ix2 r k)))
          (pick4 (fun k : Fin 1024 => vb0 (ix3 (0 : Fin 1) k h)) (fun k => vb1 (ix3 (0 : Fin 1) k h))
            (fun k => vb2 (ix3 (0 : Fin 1) k h)) (fun k => vb3 (ix3 (0 : Fin 1) k h))) 4 := by
  obtain ⟨h1, h2, h3, -⟩ := init1_apply xb wqb r h
  rw [upd1_step i3 kb3 vb3 (upd1 i2 kb2 vb2 (upd1 i1 kb1 vb1 (upd1 i0 kb0 vb0 (init1 xb wqb)))) r h,
    upd1_step i2 kb2 vb2 (upd1 i1 kb1 vb1 (upd1 i0 kb0 vb0 (init1 xb wqb))) r h,
    upd1_step i1 kb1 vb1 (upd1 i0 kb0 vb0 (init1 xb wqb)) r h,
    upd1_step i0 kb0 vb0 (init1 xb wqb) r h, h1, h2, h3]
  rfl

end Cert.KernelIdeal.Val

end
-- ==== Proof.Val.R1Blocks.lean ====
import proofs.«163724_j46600395161875_2_alg».proof.Proof.KI.R1Runs
import proofs.«163724_j46600395161875_2_alg».proof.Proof.Spec
import proofs.«163724_j46600395161875_2_alg».proof.Proof.Online
import Idealize.ShloMosaic.Lib.Pipeline.Value
import Idealize.ShloMosaic.Lib.ValueIdx

/-! Region 1 of the kernel program, the value side's first facts: where each input window's block at a grid
point sits in its array (a block's element is at block index × block size + its coordinate inside the block), the
grid point's three coordinates, and that projections and scores of real arrays are real. -/

set_option maxRecDepth 16384

noncomputable section

namespace Cert.KernelIdeal.Val

open Idealize.ShloMosaic Idealize.ShloMosaic.TcCoe Idealize.ShloMosaic.ValueIdx Cert.KernelIdeal Cert.KernelIdeal.Gen
  Cert.KernelIdeal.Hand

/-! ## The grid point's coordinates -/

/-- The batch coordinate of point t of the 4 x 4 x 4 grid. -/
def bOf (t : Fin cfg1.N) : Fin 4 := ⟨t.val / 16, by have h := t.isLt; have hN : cfg1.N = 64 := N_1; omega⟩
/-- Its query-block coordinate. -/
def qOf (t : Fin cfg1.N) : Fin 4 := ⟨t.val / 4 % 4, by omega⟩
/-- Its key-block coordinate. -/
def kOf (t : Fin cfg1.N) : Fin 4 := ⟨t.val % 4, by omega⟩
/-- Row r of block j of the sequence axis. -/
def rowOf (j : Fin 4) (r : Fin 1024) : Fin 4096 := ⟨1024 * j.val + r.val, by have := j.isLt; have := r.isLt; omega⟩

theorem bOf_val (t : Fin cfg1.N) : (bOf t).val = t.val / 16 := rfl
theorem qOf_val (t : Fin cfg1.N) : (qOf t).val = t.val / 4 % 4 := rfl
theorem kOf_val (t : Fin cfg1.N) : (kOf t).val = t.val % 4 := rfl
theorem rowOf_val (j : Fin 4) (r : Fin 1024) : (rowOf j r).val = 1024 * j.val + r.val := rfl

/-- The grid's coordinates of point t, decided over the 64 points. -/
theorem coords1_nat : ∀ t : Fin cfg1.N, (grid1.coords t 0).val = t.val / 16 ∧ (grid1.coords t 1).val = t.val / 4 % 4
    ∧ (grid1.coords t 2).val = t.val % 4 :=
  (by decide +kernel : ∀ t : Fin grid1.N, _)

theorem coords1 (t : Fin cfg1.N) : (grid1.coords t 0).val = (bOf t).val ∧ (grid1.coords t 1).val = (qOf t).val
    ∧ (grid1.coords t 2).val = (kOf t).val := coords1_nat t

/-- The printed index maps of the four input windows, decided over the 64 points. -/
theorem idx1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 2) = 0 ∧ win1_3.index t (1 : Fin 2) = 0 :=
  (by decide +kernel : ∀ t : Fin grid1.N, _)

/-! ## The blocks -/

section Blocks

variable {F : FTy → Type} [FloatOps F]
variable (V : (c : Dev nD) → (b : Ref sig .tc) → Buf (Elt F) ((c : Thread nD τ).loc b))

/-- The x block at point t is rows 1024·q … 1024·q + 1023 of batch b. -/
theorem iblk1_x (c : Dev nD) (t : Fin cfg1.N) (r : Fin 1024) (cc : Fin 512) :
    (iblk1 V c 0 t : S1x1024x512.Idx → Elt F .f32) (ix3 (0 : Fin 1) r cc)
      = (V c main_arg0 : S4x4096x512.Idx → Elt F .f32) (ix3 (bOf t) (rowOf (qOf t) r) cc) := by
  obtain ⟨e0, e1, e2, -⟩ := idx1 t
  show V c main_arg0 (((cfg1.win 0).blk t).view.emb (ix3 (0 : Fin 1) r cc)) = _
  refine congrArg _ (funext fun a => Fin.ext ?_)
  match a with
  | ⟨0, _⟩ => show win1_0.index t (0 : Fin 3) * 1 + 1 * (0 : Nat) = t.val / 16; omega
  | ⟨1, _⟩ => show win1_0.index t (1 : Fin 3) * 1024 + 1 * r.val = 1024 * (t.val / 4 % 4) + r.val; omega
  | ⟨2, _⟩ => show win1_0.index t (2 : Fin 3) * 512 + 1 * cc.val = cc.val; omega

/-- The K block at point t is rows 1024·k … 1024·k + 1023 of batch b. -/
theorem iblk1_k (c : Dev nD) (t : Fin cfg1.N) (k : Fin 1024) (h : Fin 64) :
    (iblk1 V c 1 t : S1x1024x64.Idx → Elt F .bf16) (ix3 (0 : Fin 1) k h)
      = (V c main_v0_0 : S4x4096x64.Idx → Elt F .bf16) (ix3 (bOf t) (rowOf (kOf t) k) h) := by
  obtain ⟨-, -, -, e0, e1, e2, -⟩ := idx1 t
  show V c main_v0_0 (((cfg1.win 1).blk t).view.emb (ix3 (0 : Fin 1) k h)) = _
  refine congrArg _ (funext fun a => Fin.ext ?_)
  match a with
  | ⟨0, _⟩ => show win1_1.index t (0 : Fin 3) * 1 + 1 * (0 : Nat) = t.val / 16; omega
  | ⟨1, _⟩ => show win1_1.index t (1 : Fin 3) * 1024 + 1 * k.val = 1024 * (t.val % 4) + k.val; omega
  | ⟨2, _⟩ => show win1_1.index t (2 : Fin 3) * 64 + 1 * h.val = h.val; omega

/-- The V block at point t likewise. -/
theorem iblk1_v (c : Dev nD) (t : Fin cfg1.N) (k : Fin 1024) (h : Fin 64) :
    (iblk1 V c 2 t : S1x1024x64.Idx → Elt F .bf16) (ix3 (0 : Fin 1) k h)
      = (V c main_v0_1 : S4x4096x64.Idx → Elt F .bf16) (ix3 (bOf t) (rowOf (kOf t) k) h) := by
  obtain ⟨-, -, -, -, -, -, e0, e1, e2, -⟩ := idx1 t
  show V c main_v0_1 (((cfg1.win 2).blk t).view.emb (ix3 (0 : Fin 1) k h)) = _
  refine congrArg _ (funext fun a => Fin.ext ?_)
  match a with
  | ⟨0, _⟩ => show win1_2.index t (0 : Fin 3) * 1 + 1 * (0 : Nat) = t.val / 16; omega
  | ⟨1, _⟩ => show win1_2.index t (1 : Fin 3) * 1024 + 1 * k.val = 1024 * (t.val % 4) + k.val; omega
  | ⟨2, _⟩ => show win1_2.index t (2 : Fin 3) * 64 + 1 * h.val = h.val; omega

/-- The Wq block at every point is the whole array. -/
theorem iblk1_wq (c : Dev nD) (t : Fin cfg1.N) (cc : Fin 512) (h : Fin 64) :
    (iblk1 V c 3 t : S512x64.Idx → Elt F .f32) (ix2 cc h)
      = (V c main_arg1 : S512x64.Idx → Elt F .f32) (ix2 cc h) := by
  obtain ⟨-, -, -, -, -, -, -, -, -, e0, e1⟩ := idx1 t
  show V c main_arg1 (((cfg1.win 3).blk t).view.emb (ix2 cc h)) = _
  refine congrArg _ (funext fun a => Fin.ext ?_)
  match a with
  | ⟨0, _⟩ => show win1_3.index t (0 : Fin 2) * 512 + 1 * cc.val = cc.val; omega
  | ⟨1, _⟩ => show win1_3.index t (1 : Fin 2) * 64 + 1 * h.val = h.val; omega

end Blocks

/-! ## Realness -/

/-- A projection of real arrays is real. -/
theorem proj_real (x : FVec Ideal Cert.Spec.SX .f32) (w : FVec Ideal Cert.Spec.SW .f32)
    (hx : ∀ i, ∃ a : ℝ, x i = (a : EReal)) (hw : ∀ i, ∃ a : ℝ, w i = (a : EReal)) (b : Fin 4) (t : Fin 4096) (h : Fin 64) :
    ∃ a : ℝ, Cert.Spec.proj x w b t h = (a : EReal) := by
  choose xr hxr using hx
  choose wr hwr using hw
  refine ⟨∑ c : Fin 512, xr (ix3 b t c) * wr (ix2 c h), ?_⟩
  unfold Cert.Spec.proj
  rw [← Cert.Online.sum_coe_mul_coe]
  exact Finset.sum_congr rfl fun c _ => by rw [hxr, hwr]

/-- The scale, the word 0x3E000000, is a real. -/
theorem scale_real : ∃ a : ℝ, Ideal.ofBits .f32 0x3E000000#32 = (a : EReal) := by
  have h1 : ¬ ((BitVec.extractLsb' 23 8 (0x3E000000#32 : BitVec 32)).toNat = 2 ^ 8 - 1) := by decide
  have h2 : ¬ ((BitVec.extractLsb' 23 8 (0x3E000000#32 : BitVec 32)).toNat = 0) := by decide
  show ∃ a : ℝ, Ideal.ieee 8 23 (0x3E000000#32 : BitVec 32) = (a : EReal)
  unfold Ideal.ieee
  simp only [if_neg h1, if_neg h2]
  exact ⟨_, rfl⟩

/-- A score of real arrays is real. -/
theorem score_real (x : FVec Ideal Cert.Spec.SX .f32) (wq wk : FVec Ideal Cert.Spec.SW .f32)
    (hx : ∀ i, ∃ a : ℝ, x i = (a : EReal)) (hq : ∀ i, ∃ a : ℝ, wq i = (a : EReal)) (hk : ∀ i, ∃ a : ℝ, wk i = (a : EReal))
    (b : Fin 4) (t s : Fin 4096) : ∃ a : ℝ, Cert.Spec.score x wq wk b t s = (a : EReal) := by
  unfold Cert.Spec.score
  by_cases hts : t = s
  · rw [if_pos hts]; exact ⟨0, rfl⟩
  · rw [if_neg hts]
    choose pq hpq using fun h => proj_real x wq hx hq b t h
    choose pk hpk using fun h => proj_real x wk hx hk b s h
    obtain ⟨sc, hsc⟩ := scale_real
    refine ⟨(∑ h : Fin 64, pq h * pk h) * sc, ?_⟩
    rw [hsc, EReal.coe_mul, ← Cert.Online.sum_coe_mul_coe]
    exact congrArg (· * (sc : EReal)) (Finset.sum_congr rfl fun h _ => by rw [hpq, hpk])

end Cert.KernelIdeal.Val

end
-- ==== Proof.Val.R1Score.lean ====
import proofs.«163724_j46600395161875_2_alg».proof.Proof.Val.R1Blocks
import proofs.«163724_j46600395161875_2_alg».proof.Proof.Val.R1Point

/-! Region 1 of the kernel program: the score tile the body computes at a grid point, from the projected query
tile kept since the first key tile and the point's key block, is the specification's score at the tile's rows and
columns; and the value block is the specification's value projection. -/

set_option maxRecDepth 16384

noncomputable section

namespace Cert.KernelIdeal.Val

open Idealize.ShloMosaic Idealize.ShloMosaic.TcCoe Idealize.ShloMosaic.ValueIdx Cert.KernelIdeal Cert.KernelIdeal.Gen
  Cert.KernelIdeal.Hand

variable (V : (c : Dev nD) → (b : Ref sig .tc) → Buf (Elt Ideal) ((c : Thread nD τ).loc b))
variable (x : FVec Ideal Cert.Spec.SX .f32) (wq wk wv : FVec Ideal Cert.Spec.SW .f32) (c : Dev nD)

/-! ## The tiles -/

/-- The key block at point t is the key projection at the block's rows. -/
theorem kb_eq (hVk : (V c main_v0_0 : S4x4096x64.Idx → EReal) = fun i => Cert.Spec.proj x wk (i 0) (i 1) (i 2))
    (t : Fin cfg1.N) (k : Fin 1024) (h : Fin 64) :
    (iblk1 V c 1 t : S1x1024x64.Idx → EReal) (ix3 (0 : Fin 1) k h) = Cert.Spec.proj x wk (bOf t) (rowOf (kOf t) k) h :=
  (iblk1_k V c t k h).trans (congrFun hVk (ix3 (bOf t) (rowOf (kOf t) k) h))

/-- The value block at point t is the value projection at the block's rows. -/
theorem vv_eq (hVv : (V c main_v0_1 : S4x4096x64.Idx → EReal) = fun i => Cert.Spec.proj x wv (i 0) (i 1) (i 2))
    (t : Fin cfg1.N) (k : Fin 1024) (h : Fin 64) :
    (iblk1 V c 2 t : S1x1024x64.Idx → EReal) (ix3 (0 : Fin 1) k h) = Cert.Spec.proj x wv (bOf t) (rowOf (kOf t) k) h :=
  (iblk1_v V c t k h).trans (congrFun hVv (ix3 (bOf t) (rowOf (kOf t) k) h))

/-- The projected query tile, once it is the x block times Wq entry by entry, is the query projection at the
    block's rows. -/
theorem q_eq_of
    (hinit : ∀ (xb : Vec Ideal S1x1024x512 .f32) (w : Vec Ideal S512x64 .f32) (r : Fin 1024) (h : Fin 64),
      (init1 xb w).2.2.2 (ix2 r h) = ∑ cc : Fin 512, xb (ix3 (0 : Fin 1) r cc) * w (ix2 cc h))
    (hVx : (V c main_arg0 : S4x4096x512.Idx → EReal) = x) (hVq : (V c main_arg1 : S512x64.Idx → EReal) = wq)
    (t0 : Fin cfg1.N) (r : Fin 1024) (h : Fin 64) :
    (init1 (iblk1 V c 0 t0) (iblk1 V c 3 t0)).2.2.2 (ix2 r h) = Cert.Spec.proj x wq (bOf t0) (rowOf (qOf t0) r) h := by
  refine (hinit _ _ r h).trans ?_
  unfold Cert.Spec.proj
  refine Finset.sum_congr rfl fun cc _ => ?_
  rw [← hVx, ← hVq]
  exact congrArg₂ (· * ·) (iblk1_x V c t0 r cc) (iblk1_wq V c t0 cc h)

/-- The score tile at point t, against the query tile of a point t0 of the same batch and query block, is the
    specification's score. -/
theorem sc_eq_of
    (hP10 : ∀ (i : grid1.Coords) (q : Vec Ideal S1024x64 .bf16) (kb : Vec Ideal S1x1024x64 .bf16) (r k : Fin 1024),
      k1_pay10 (F := Ideal) i q kb (ix2 r k)
        = if 1024 * (i 1).val + r.val = 1024 * (i 2).val + k.val then 0
          else (∑ h : Fin 64, q (ix2 r h) * kb (ix3 (0 : Fin 1) k h)) * Ideal.ofBits .f32 0x3E000000#32)
    (hinit : ∀ (xb : Vec Ideal S1x1024x512 .f32) (w : Vec Ideal S512x64 .f32) (r : Fin 1024) (h : Fin 64),
      (init1 xb w).2.2.2 (ix2 r h) = ∑ cc : Fin 512, xb (ix3 (0 : Fin 1) r cc) * w (ix2 cc h))
    (hVx : (V c main_arg0 : S4x4096x512.Idx → EReal) = x) (hVq : (V c main_arg1 : S512x64.Idx → EReal) = wq)
    (hVk : (V c main_v0_0 : S4x4096x64.Idx → EReal) = fun i => Cert.Spec.proj x wk (i 0) (i 1) (i 2))
    (t0 t : Fin cfg1.N) (hb : bOf t = bOf t0) (hq : qOf t = qOf t0) (r k : Fin 1024) :
    k1_pay10 (F := Ideal) (grid1.coords t) (init1 (iblk1 V c 0 t0) (iblk1 V c 3 t0)).2.2.2 (iblk1 V c 1 t) (ix2 r k)
      = Cert.Spec.score x wq wk (bOf t0) (rowOf (qOf t0) r) (rowOf (kOf t) k) := by
  refine (hP10 _ _ _ r k).trans ?_
  unfold Cert.Spec.score
  obtain ⟨-, c1, c2⟩ := coords1 t
  have hcond : (1024 * (grid1.coords t 1).val + r.val = 1024 * (grid1.coords t 2).val + k.val)
      ↔ rowOf (qOf t0) r = rowOf (kOf t) k := by
    rw [c1, c2, hq, Fin.ext_iff, rowOf_val, rowOf_val]
  refine if_congr hcond rfl ?_
  refine congrArg (· * Ideal.ofBits .f32 0x3E000000#32) (Finset.sum_congr rfl fun h _ => ?_)
  exact congrArg₂ (· * ·) (q_eq_of V x wq c hinit hVx hVq t0 r h) ((kb_eq V x wk c hVk t k h).trans (by rw [hb]))

/-! ## With the body's payloads read -/

/-- The projected query tile kept since the first key tile of point t0's (batch, query block) is the query
    projection at the block's rows. -/
theorem q_eq (hVx : (V c main_arg0 : S4x4096x512.Idx → EReal) = x) (hVq : (V c main_arg1 : S512x64.Idx → EReal) = wq)
    (t0 : Fin cfg1.N) (r : Fin 1024) (h : Fin 64) :
    (init1 (iblk1 V c 0 t0) (iblk1 V c 3 t0)).2.2.2 (ix2 r h) = Cert.Spec.proj x wq (bOf t0) (rowOf (qOf t0) r) h :=
  q_eq_of V x wq c (fun xb w r h => (init1_apply xb w r h).2.2.2) hVx hVq t0 r h

/-- The tile scores are the specification's scores. -/
theorem sc_eq (hVx : (V c main_arg0 : S4x4096x512.Idx → EReal) = x) (hVq : (V c main_arg1 : S512x64.Idx → EReal) = wq)
    (hVk : (V c main_v0_0 : S4x4096x64.Idx → EReal) = fun i => Cert.Spec.proj x wk (i 0) (i 1) (i 2))
    (t0 t : Fin cfg1.N) (hb : bOf t = bOf t0) (hq : qOf t = qOf t0) (r k : Fin 1024) :
    k1_pay10 (F := Ideal) (grid1.coords t) (init1 (iblk1 V c 0 t0) (iblk1 V c 3 t0)).2.2.2 (iblk1 V c 1 t) (ix2 r k)
      = Cert.Spec.score x wq wk (bOf t0) (rowOf (qOf t0) r) (rowOf (kOf t) k) :=
  sc_eq_of V x wq wk c pay10_apply (fun xb w r h => (init1_apply xb w r h).2.2.2) hVx hVq hVk t0 t hb hq r k

end Cert.KernelIdeal.Val

end
-- ==== Proof.Val.R1Value.lean ====
/-
  The output block of region 1 at a point that closes a group of four key tiles, read at row r and column h, is the
  specification's attention output at (batch, 1024·(query tile) + r, h): the carried state after the group's four
  points is the online recurrence after four tiles on that row's scores and that column's values; those scores and
  values are the specification's (a row of 4096 = 4 × 1024 keys); and for real scores and values the recurrence's
  quotient is the softmax-weighted sum.
-/
import proofs.«163724_j46600395161875_2_alg».proof.Proof.Val.R1Chain
import proofs.«163724_j46600395161875_2_alg».proof.Proof.Val.R1Score
import proofs.«163724_j46600395161875_2_alg».proof.Proof.Val.R1Blocks
import proofs.«163724_j46600395161875_2_alg».proof.Proof.Online2

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

set_option maxHeartbeats 1000000 in
theorem st1_out (c : Dev nD) (x : FVec Ideal Cert.Spec.SX .f32) (wq wk wv : FVec Ideal Cert.Spec.SW .f32)
    (hx : ∀ i, ∃ a : ℝ, x i = (a : EReal)) (hq : ∀ i, ∃ a : ℝ, wq i = (a : EReal))
    (hk : ∀ i, ∃ a : ℝ, wk i = (a : EReal)) (hv : ∀ i, ∃ a : ℝ, wv i = (a : EReal))
    (hVx : (V c main_arg0 : S4x4096x512.Idx → EReal) = x) (hVq : (V c main_arg1 : S512x64.Idx → EReal) = wq)
    (hVk : (V c main_v0_0 : S4x4096x64.Idx → EReal) = fun i => Cert.Spec.proj x wk (i 0) (i 1) (i 2))
    (hVv : (V c main_v0_1 : S4x4096x64.Idx → EReal) = fun i => Cert.Spec.proj x wv (i 0) (i 1) (i 2))
    (t : Fin cfg1.N) (h3 : t.val % 4 = 3) (r : Fin 1024) (h : Fin 64) :
    outOf (st1 V c t.val t.isLt) (ix3 (0 : Fin 1) r h)
      = Cert.Spec.G x wq wk wv (ix3 (bOf t) (rowOf (qOf t) r) h) := by
  have hN : cfg1.N = 64 := N_1
  have ht := t.isLt
  -- the group's four points
  let t2 : Fin cfg1.N := ⟨t.val - 1, by omega⟩
  let t1 : Fin cfg1.N := ⟨t.val - 2, by omega⟩
  let t0 : Fin cfg1.N := ⟨t.val - 3, by omega⟩
  have e3 := st1_next V c t (by omega)
  have e2 := st1_next V c t2 (by show ¬(t.val - 1) % 4 = 0; omega)
  have e1 := st1_next V c t1 (by show ¬(t.val - 2) % 4 = 0; omega)
  have e0 := st1_first V c t0 (by show (t.val - 3) % 4 = 0; omega)
  have e2' : st1 V c (t.val - 1) (Nat.lt_of_le_of_lt (Nat.sub_le _ _) t.isLt) = _ := e2
  have e1' : st1 V c (t2.val - 1) (Nat.lt_of_le_of_lt (Nat.sub_le _ _) t2.isLt)
      = upd1 (grid1.coords t1) (iblk1 V c 1 t1) (iblk1 V c 2 t1) (st1 V c (t1.val - 1) (Nat.lt_of_le_of_lt (Nat.sub_le _ _) t1.isLt)) := e1
  have e0' : st1 V c (t1.val - 1) (Nat.lt_of_le_of_lt (Nat.sub_le _ _) t1.isLt)
      = upd1 (grid1.coords t0) (iblk1 V c 1 t0) (iblk1 V c 2 t0) (init1 (iblk1 V c 0 t0) (iblk1 V c 3 t0)) := e0
  have hS : st1 V c t.val t.isLt
      = upd1 (grid1.coords t) (iblk1 V c 1 t) (iblk1 V c 2 t) (upd1 (grid1.coords t2) (iblk1 V c 1 t2) (iblk1 V c 2 t2)
          (upd1 (grid1.coords t1) (iblk1 V c 1 t1) (iblk1 V c 2 t1) (upd1 (grid1.coords t0) (iblk1 V c 1 t0) (iblk1 V c 2 t0)
            (init1 (iblk1 V c 0 t0) (iblk1 V c 3 t0))))) := by
    rw [e3, e2', e1', e0']
  rw [hS, outOf_apply]
  have hch := chain4 (grid1.coords t0) (grid1.coords t1) (grid1.coords t2) (grid1.coords t) (iblk1 V c 0 t0) (iblk1 V c 3 t0)
    (iblk1 V c 1 t0) (iblk1 V c 2 t0) (iblk1 V c 1 t1) (iblk1 V c 2 t1) (iblk1 V c 1 t2) (iblk1 V c 2 t2) (iblk1 V c 1 t) (iblk1 V c 2 t) r h
  have h21 := congrArg (fun p : EReal × EReal × EReal => p.2.1) hch
  have h22 := congrArg (fun p : EReal × EReal × EReal => p.2.2) hch
  dsimp only at h21 h22
  rw [h22, h21]
  -- the group's points share the batch and the query tile, and their key tiles are 0, 1, 2, 3
  have hb0 : bOf t0 = bOf t := Fin.ext (by show (t.val - 3) / 16 = t.val / 16; omega)
  have hb1 : bOf t1 = bOf t := Fin.ext (by show (t.val - 2) / 16 = t.val / 16; omega)
  have hb2 : bOf t2 = bOf t := Fin.ext (by show (t.val - 1) / 16 = t.val / 16; omega)
  have hq0 : qOf t0 = qOf t := Fin.ext (by show (t.val - 3) / 4 % 4 = t.val / 4 % 4; omega)
  have hq1 : qOf t1 = qOf t := Fin.ext (by show (t.val - 2) / 4 % 4 = t.val / 4 % 4; omega)
  have hq2 : qOf t2 = qOf t := Fin.ext (by show (t.val - 1) / 4 % 4 = t.val / 4 % 4; omega)
  have hk0 : (kOf t0).val = 0 := by show (t.val - 3) % 4 = 0; omega
  have hk1 : (kOf t1).val = 1 := by show (t.val - 2) % 4 = 1; omega
  have hk2 : (kOf t2).val = 2 := by show (t.val - 1) % 4 = 2; omega
  have hk3 : (kOf t).val = 3 := h3
  -- real witnesses of the row's scores and of the column's values
  choose f hf using fun s : Fin 4096 => score_real x wq wk hx hq hk (bOf t) (rowOf (qOf t) r) s
  choose g hg using fun s : Fin 4096 => proj_real x wv hx hv (bOf t) s h
  have hrow : ∀ (tj : Fin cfg1.N) (j : Fin 4), (kOf tj).val = j.val → ∀ k : Fin 1024,
      rowOf (kOf tj) k = (⟨j.val * 1024 + k.val, Cert.SumBlocks.block_lt j k⟩ : Fin (4 * 1024)) := fun tj j hj k =>
    Fin.ext (by show 1024 * (kOf tj).val + k.val = j.val * 1024 + k.val; rw [hj]; omega)
  have hsc : ∀ (tj : Fin cfg1.N) (j : Fin 4), bOf tj = bOf t → qOf tj = qOf t → (kOf tj).val = j.val → ∀ k : Fin 1024,
      k1_pay10 (F := Ideal) (grid1.coords tj) (init1 (iblk1 V c 0 t0) (iblk1 V c 3 t0)).2.2.2 (iblk1 V c 1 tj) (ix2 r k)
        = ((Cert.Online.tileOf (J := 4) f j.val k : ℝ) : EReal) := fun tj j hbj hqj hj k => by
    rw [sc_eq V x wq wk c hVx hVq hVk t0 tj (hbj.trans hb0.symm) (hqj.trans hq0.symm) r k, hb0, hq0, hf,
      Cert.Online.tileOf_fin f j k, hrow tj j hj k]
  have hvv : ∀ (tj : Fin cfg1.N) (j : Fin 4), bOf tj = bOf t → (kOf tj).val = j.val → ∀ k : Fin 1024,
      (iblk1 V c 2 tj : S1x1024x64.Idx → EReal) (ix3 (0 : Fin 1) k h) = ((Cert.Online.tileOf (J := 4) g j.val k : ℝ) : EReal) :=
    fun tj j hbj hj k => by
      rw [vv_eq V x wv c hVv tj k h, hbj, hg, Cert.Online.tileOf_fin g j k, hrow tj j hj k]
  rw [Cert.Online.onl_congr _ _ (fun j k => ((Cert.Online.tileOf (J := 4) f j k : ℝ) : EReal))
    (fun j k => ((Cert.Online.tileOf (J := 4) g j k : ℝ) : EReal)) 4
    (fun j hj => by
      interval_cases j
      · exact funext fun k => hsc t0 0 hb0 hq0 hk0 k
      · exact funext fun k => hsc t1 1 hb1 hq1 hk1 k
      · exact funext fun k => hsc t2 2 hb2 hq2 hk2 k
      · exact funext fun k => hsc t 3 rfl rfl hk3 k)
    (fun j hj => by
      interval_cases j
      · exact funext fun k => hvv t0 0 hb0 hk0 k
      · exact funext fun k => hvv t1 1 hb1 hk1 k
      · exact funext fun k => hvv t2 2 hb2 hk2 k
      · exact funext fun k => hvv t 3 rfl hk3 k)]
  have hflat := Cert.Online.onl_div_flat 4 (by norm_num) (by norm_num : 0 < 1024) f g
  dsimp only at hflat
  rw [hflat]
  -- the specification, unfolded at the index, with the same real witnesses
  show _ = ∑ s : Fin 4096, Ideal.div (Cert.Spec.ex x wq wk (bOf t) (rowOf (qOf t) r) s) (Cert.Spec.rowSum x wq wk (bOf t) (rowOf (qOf t) r))
      * Cert.Spec.proj x wv (bOf t) s h
  unfold Cert.Spec.rowSum Cert.Spec.ex Cert.Spec.rowMax
  simp only [hf, hg]

end Cert.KernelIdeal.Val

end
-- ==== Proof.Val.R1Cover.lean ====
/-
  Region 1 of the kernel program, the attention kernel, on its 4 x 4 x 4 grid: point t is (b, qi, ki) =
  (t / 16, (t / 4) % 4, t % 4). The result window's block at t is rows 1024 qi .. 1024 qi + 1023 of batch b, and it is
  written back at the last key step of each (b, qi), the points with t % 4 = 3. Here: if every such point writes back
  its block of ONE function of the array index, the result array ends holding that function. Stated for any proof data
  of the pipeline, so it does not depend on what the body computes.
-/
import proofs.«163724_j46600395161875_2_alg».proof.Proof.Gen.KernelIdeal.Launch
import proofs.«163724_j46600395161875_2_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- The result window's block index at point t, decided over the 64 points: (t / 16, (t / 4) % 4, 0). -/
theorem idx1_4 : ∀ t : Fin cfg1.N, win1_4.index t (0 : Fin 3) = t.val / 16
    ∧ win1_4.index t (1 : Fin 3) = t.val / 4 % 4 ∧ win1_4.index t (2 : Fin 3) = 0 :=
  (by decide +kernel : ∀ t : Fin grid1.N, win1_4.index t (0 : Fin 3) = t.val / 16
    ∧ win1_4.index t (1 : Fin 3) = t.val / 4 % 4 ∧ win1_4.index t (2 : Fin 3) = 0)

/-- An index of the array is in point t's block iff each coordinate is in the block's range on its axis. -/
theorem mem_blk1_4 (t : Fin cfg1.N) (i : S4x4096x64.Idx) :
    i ∈ ((cfg1.win 4).blk t).view.set ↔ ∀ a : Fin 3, win1_4.index t a * S1x1024x64.size a ≤ (i a).val ∧ (i a).val < win1_4.index t a * S1x1024x64.size a + S1x1024x64.size a := by
  show i ∈ ((View.whole main_v1).slice (win1_4.rect t)).set ↔ _
  rw [View.set_slice_whole, Rect.mem_set_unit]
  exact Iff.rfl

/-- WHAT A WRITING POINT WRITES BACK is its block of the one function: element (0, r, h) of point t's block sits at
    (t / 16, 1024 ((t / 4) % 4) + r, h) of the array. -/
theorem flushed1_4_eq (c : Dev nD) (dat : Pipeline.Dat τ (Elt Ideal) Unit ℕ (UR sig nD τ) ℕ cfg1 c) (Gfn : S4x4096x64.Idx → EReal)
    (hflush : ∀ (t : Fin cfg1.N), t.val % 4 = 3 → ∀ (r : Fin 1024) (h : Fin 64),
      dat.after 4 t (ix3 (0 : Fin 1) r h)
        = Gfn (ix3 (⟨t.val / 16, by have := t.isLt; have h64 : cfg1.N = 64 := N_1; omega⟩ : Fin 4)
            (⟨1024 * (t.val / 4 % 4) + r.val, by have := r.isLt; omega⟩ : Fin 4096) h))
    (t : Fin cfg1.N) (ht : t.val % 4 = 3) :
    dat.flushed 4 t = ((cfg1.win 4).blk t).view.read (Elt Ideal) Gfn := by
  show (cfg1.win 4).cut (grid1.coords t) (dat.after 4 t) = _
  funext y
  obtain ⟨p, r, h, rfl⟩ : ∃ (p : Fin 1) (r : Fin 1024) (h : Fin 64), y = ix3 p r h := ⟨y 0, y 1, y 2, eq_ix3 y⟩
  obtain rfl : p = 0 := Subsingleton.elim _ _
  rw [View.read_apply]
  show dat.after 4 t (ix3 (0 : Fin 1) r h) = Gfn (((cfg1.win 4).blk t).view.emb (ix3 (0 : Fin 1) r h))
  rw [hflush t ht r h]
  obtain ⟨e0, e1, e2⟩ := idx1_4 t
  refine congrArg Gfn (funext fun a => Fin.ext ?_)
  match a with
  | ⟨0, _⟩ => show t.val / 16 = win1_4.index t (0 : Fin 3) * 1 + 1 * 0; omega
  | ⟨1, _⟩ => show 1024 * (t.val / 4 % 4) + r.val = win1_4.index t (1 : Fin 3) * 1024 + 1 * r.val; omega
  | ⟨2, _⟩ => show h.val = win1_4.index t (2 : Fin 3) * 64 + 1 * h.val; omega

/-- Every index of the result array is in the block of a writing point: row (b, T) in that of t = 16 b + 4 (T / 1024) + 3. -/
theorem cover1_4 (i : S4x4096x64.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 64 := (i 2).isLt
  obtain ⟨t, ht⟩ : ∃ t : Fin cfg1.N, t.val = 16 * (i 0).val + 4 * ((i 1).val / 1024) + 3 :=
    ⟨⟨16 * (i 0).val + 4 * ((i 1).val / 1024) + 3, by have h64 : cfg1.N = 64 := N_1; omega⟩, rfl⟩
  refine ⟨t, (flush1_4 t).mpr (by omega), ?_⟩
  rw [mem_blk1_4]
  obtain ⟨e0, e1, e2⟩ := idx1_4 t
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 64 ≤ (i 2).val ∧ (i 2).val < win1_4.index t (2 : Fin 3) * 64 + 64; omega

/-- THE RESULT ARRAY after region 1: the one function, when every writing point writes back its block of it. -/
theorem out_arr_of (c : Dev nD) (dat : Pipeline.Dat τ (Elt Ideal) Unit ℕ (UR sig nD τ) ℕ cfg1 c) (Gfn : S4x4096x64.Idx → EReal)
    (hflush : ∀ (t : Fin cfg1.N), t.val % 4 = 3 → ∀ (r : Fin 1024) (h : Fin 64),
      dat.after 4 t (ix3 (0 : Fin 1) r h)
        = Gfn (ix3 (⟨t.val / 16, by have := t.isLt; have h64 : cfg1.N = 64 := N_1; omega⟩ : Fin 4)
            (⟨1024 * (t.val / 4 % 4) + r.val, by have := r.isLt; omega⟩ : Fin 4096) h)) :
    dat.arrAt 4 cfg1.N = Gfn :=
  dat.arrAt_eq_of_cover 4 Gfn (fun t hf => flushed1_4_eq c dat Gfn hflush t ((flush1_4 t).mp hf)) cover1_4

end Cert.KernelIdeal.Val

end
-- ==== Proof.Val.R0Value.lean ====
/-
  Region 0 of the kernel program, the key / value projection, read as a value at the exact instance. The body at grid
  point (b, j) stores the product of rows 1024 j .. 1024 j + 1023 of batch b of x with a whole weight matrix; the blocks
  of the 16 points tile the [4, 4096, 64] arrays, so after the region the K array holds x·Wk and the V array x·Wv, entry
  by entry as the specification's projection.
-/
import proofs.«163724_j46600395161875_2_alg».proof.Proof.KI.R0Frame
import proofs.«163724_j46600395161875_2_alg».proof.Proof.Spec
import proofs.«163724_j46600395161875_2_alg».proof.Proof.LibDense
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-! ## The payload at an index -/

/-- The body's matrix product has the plain dimension numbers of an [M, K] by [K, N] product. -/
theorem dims_plain : dot_S1024x512_S512x64_S1024x64_1_0_0_1_n_n = DotDims.plain 1024 512 64 := rfl

/-- The x block viewed [1024, 512] and narrowed: entry (r, c) is entry (0, r, c) of the block. -/
theorem k0_pay1_apply (x0 : Vec Ideal S1x1024x512 .f32) (r : Fin 1024) (c : Fin 512) :
    k0_pay1 x0 (ix2 r c) = x0 (ix3 (0 : Fin 1) r c) := by
  unfold k0_pay1
  show shapeCast S1024x512 x0 shapeCasts_S1x1024x512_S1024x512 (ix2 r c) = _
  refine shapeCast_apply _ _ (ix2 r c) (ix3 (0 : Fin 1) r c) ?_
  rw [Shape.rowMajor_val_two, Shape.rowMajor_val_three]
  show (0 * 1024 + r.val) * 512 + c.val = r.val * 512 + c.val
  omega

/-- The stored K block at (0, r, h): row r of the x block times column h of the weight matrix. -/
theorem k0_pay2_apply (x0 : Vec Ideal S1x1024x512 .f32) (x1 : Vec Ideal S512x64 .f32) (r : Fin 1024) (h : Fin 64) :
    k0_pay2 x0 x1 (ix3 (0 : Fin 1) r h) = ∑ c : Fin 512, x0 (ix3 (0 : Fin 1) r c) * x1 (ix2 c h) := by
  unfold k0_pay2
  refine (shapeCast_apply _ _ (ix3 (0 : Fin 1) r h) (ix2 r h) ?_).trans ?_
  · rw [Shape.rowMajor_val_two, Shape.rowMajor_val_three]
    show r.val * 64 + h.val = (0 * 1024 + r.val) * 64 + h.val
    omega
  rw [truncf_apply, dims_plain]
  refine (Cert.LibDense.matmul_plain (k0_pay1 x0) (truncf .bf16 x1 bitsLt_bf16_f32) (ix2 r h)).trans ?_
  unfold Cert.LibDense.prod
  refine Finset.sum_congr rfl fun c _ => ?_
  show k0_pay1 x0 (ix2 r c) * x1 (ix2 c h) = _
  rw [k0_pay1_apply]

/-- The stored V block, the same with the other weight matrix. -/
theorem k0_pay3_apply (x0 : Vec Ideal S1x1024x512 .f32) (x2 : Vec Ideal S512x64 .f32) (r : Fin 1024) (h : Fin 64) :
    k0_pay3 x0 x2 (ix3 (0 : Fin 1) r h) = ∑ c : Fin 512, x0 (ix3 (0 : Fin 1) r c) * x2 (ix2 c h) := by
  unfold k0_pay3
  refine (shapeCast_apply _ _ (ix3 (0 : Fin 1) r h) (ix2 r h) ?_).trans ?_
  · rw [Shape.rowMajor_val_two, Shape.rowMajor_val_three]
    show r.val * 64 + h.val = (0 * 1024 + r.val) * 64 + h.val
    omega
  rw [truncf_apply, dims_plain]
  refine (Cert.LibDense.matmul_plain (k0_pay1 x0) (truncf .bf16 x2 bitsLt_bf16_f32) (ix2 r h)).trans ?_
  unfold Cert.LibDense.prod
  refine Finset.sum_congr rfl fun c _ => ?_
  show k0_pay1 x0 (ix2 r c) * x2 (ix2 c h) = _
  rw [k0_pay1_apply]

/-! ## The index maps, decided once over the 16 points -/

/-- Point t is (b, j) = (t / 4, t % 4): the x window and the two output windows sit at block (b, j, 0), the weights at
    block (0, 0). -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0)

theorem hz3 : (![0, 0, 0] : Fin 3 → Nat) = fun _ => 0 := funext fun a => by fin_cases a <;> rfl
theorem hz2 : (![0, 0] : Fin 2 → Nat) = fun _ => 0 := funext fun a => by fin_cases a <;> rfl

/-- The batch of point t. -/
abbrev bOf0 (t : Fin cfg0.N) : Fin 4 := ⟨t.val / 4, by have := t.isLt; have h16 : cfg0.N = 16 := N_0; omega⟩
/-- Row r of point t's block is row 1024 (t % 4) + r of the array. -/
abbrev rowOf0 (t : Fin cfg0.N) (r : Fin 1024) : Fin 4096 := ⟨1024 * (t.val % 4) + r.val, by have := r.isLt; omega⟩

section
variable (V : (c : Dev nD) → (b : Ref sig .tc) → Buf (Elt Ideal) ((c : Thread nD τ).loc b)) (c : Dev nD)

/-! ## The input blocks, read off the arrays -/

/-- Element (0, r, k) of the x block at point t is x at (t / 4, 1024 (t % 4) + r, k). -/
theorem xblk_apply (t : Fin cfg0.N) (r : Fin 1024) (k : Fin 512) :
    (iblk0 (F := Ideal) V c 0 t : S1x1024x512.Idx → EReal) (ix3 (0 : Fin 1) r k)
      = (V c main_arg0 : S4x4096x512.Idx → EReal) (ix3 (bOf0 t) (rowOf0 t r) k) := by
  obtain ⟨e0, e1, e2, -⟩ := idx0 t
  unfold iblk0
  rw [View.read_apply]
  show (V c main_arg0 : S4x4096x512.Idx → EReal) (((cfg0.win 0).blk t).view.emb (ix3 (0 : Fin 1) r k)) = _
  refine congrArg _ (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 512 + 1 * k.val = k.val; omega

/-- The first weight window's block at any point is the whole matrix. -/
theorem w1blk_apply (t : Fin cfg0.N) (k : Fin 512) (h : Fin 64) :
    (iblk0 (F := Ideal) V c 1 t : S512x64.Idx → EReal) (ix2 k h) = (V c main_arg2 : S512x64.Idx → EReal) (ix2 k h) := by
  obtain ⟨-, -, -, e0, e1, -⟩ := idx0 t
  unfold iblk0
  rw [View.read_apply]
  show (V c main_arg2 : S512x64.Idx → EReal) (((cfg0.win 1).blk t).view.emb (ix2 k h)) = _
  refine congrArg _ (funext fun a => Fin.ext ?_)
  match a with
  | ⟨0, _⟩ => show win0_1.index t (0 : Fin 2) * 512 + 1 * k.val = k.val; omega
  | ⟨1, _⟩ => show win0_1.index t (1 : Fin 2) * 64 + 1 * h.val = h.val; omega

/-- The second weight window's block at any point is the whole matrix. -/
theorem w2blk_apply (t : Fin cfg0.N) (k : Fin 512) (h : Fin 64) :
    (iblk0 (F := Ideal) V c 2 t : S512x64.Idx → EReal) (ix2 k h) = (V c main_arg3 : S512x64.Idx → EReal) (ix2 k h) := by
  obtain ⟨-, -, -, -, -, e0, e1, -⟩ := idx0 t
  unfold iblk0
  rw [View.read_apply]
  show (V c main_arg3 : S512x64.Idx → EReal) (((cfg0.win 2).blk t).view.emb (ix2 k h)) = _
  refine congrArg _ (funext fun a => Fin.ext ?_)
  match a with
  | ⟨0, _⟩ => show win0_2.index t (0 : Fin 2) * 512 + 1 * k.val = k.val; omega
  | ⟨1, _⟩ => show win0_2.index t (1 : Fin 2) * 64 + 1 * h.val = h.val; omega

end

section
variable (V : (c : Dev nD) → (b : Ref sig .tc) → Buf (Elt Ideal) ((c : Thread nD τ).loc b)) (c : Dev nD)

/-! ## What the arrays end holding -/

/-- x·Wk, entry by entry. -/
abbrev Kfn : S4x4096x64.Idx → EReal :=
  fun i => Cert.Spec.proj (V c main_arg0 : S4x4096x512.Idx → EReal) (V c main_arg2 : S512x64.Idx → EReal) (i 0) (i 1) (i 2)
/-- x·Wv, entry by entry. -/
abbrev Vfn : S4x4096x64.Idx → EReal :=
  fun i => Cert.Spec.proj (V c main_arg0 : S4x4096x512.Idx → EReal) (V c main_arg3 : S512x64.Idx → EReal) (i 0) (i 1) (i 2)

/-- Element (0, r, h) of the K window's block at point t sits at (t / 4, 1024 (t % 4) + r, h) of the array. -/
theorem emb0_3 (t : Fin cfg0.N) (r : Fin 1024) (h : Fin 64) :
    ((cfg0.win 3).blk t).view.emb (ix3 (0 : Fin 1) r h) = (ix3 (bOf0 t) (rowOf0 t r) h : S4x4096x64.Idx) := by
  obtain ⟨-, -, -, -, -, -, -, e0, e1, e2, -⟩ := idx0 t
  refine funext fun a => Fin.ext ?_
  match a with
  | ⟨0, _⟩ => show win0_3.index t (0 : Fin 3) * 1 + 1 * 0 = t.val / 4; omega
  | ⟨1, _⟩ => show win0_3.index t (1 : Fin 3) * 1024 + 1 * r.val = 1024 * (t.val % 4) + r.val; omega
  | ⟨2, _⟩ => show win0_3.index t (2 : Fin 3) * 64 + 1 * h.val = h.val; omega

/-- The same for the V window. -/
theorem emb0_4 (t : Fin cfg0.N) (r : Fin 1024) (h : Fin 64) :
    ((cfg0.win 4).blk t).view.emb (ix3 (0 : Fin 1) r h) = (ix3 (bOf0 t) (rowOf0 t r) h : S4x4096x64.Idx) := by
  obtain ⟨-, -, -, -, -, -, -, -, -, -, e0, e1, e2⟩ := idx0 t
  refine funext fun a => Fin.ext ?_
  match a with
  | ⟨0, _⟩ => show win0_4.index t (0 : Fin 3) * 1 + 1 * 0 = t.val / 4; omega
  | ⟨1, _⟩ => show win0_4.index t (1 : Fin 3) * 1024 + 1 * r.val = 1024 * (t.val % 4) + r.val; omega
  | ⟨2, _⟩ => show win0_4.index t (2 : Fin 3) * 64 + 1 * h.val = h.val; omega

/-- WHAT POINT t WRITES BACK to the K array is block t of x·Wk. -/
theorem flushed0_3_eq (t : Fin cfg0.N) :
    (dat0 (F := Ideal) V c).flushed 3 t = ((cfg0.win 3).blk t).view.read (Elt Ideal) (Kfn V c) := by
  show (cfg0.win 3).cut (grid0.coords t) ((dat0 (F := Ideal) V c).after 3 t) = _
  rw [after0_3]
  unfold out0_3
  rw [View.canon_unit_zero hz3]
  simp only [View.ld_unit_zero (S := S1x1024x512) hz3, View.ld_unit_zero (S := S512x64) hz2]
  funext y
  obtain ⟨p, r, h, rfl⟩ : ∃ (p : Fin 1) (r : Fin 1024) (h : Fin 64), y = ix3 p r h := ⟨y 0, y 1, y 2, eq_ix3 y⟩
  obtain rfl : p = 0 := Subsingleton.elim _ _
  rw [View.read_apply, emb0_3]
  show k0_pay2 (iblk0 (F := Ideal) V c 0 t) (iblk0 (F := Ideal) V c 1 t) (ix3 (0 : Fin 1) r h)
    = Cert.Spec.proj (V c main_arg0 : S4x4096x512.Idx → EReal) (V c main_arg2 : S512x64.Idx → EReal) (bOf0 t) (rowOf0 t r) h
  refine (k0_pay2_apply _ _ r h).trans ?_
  unfold Cert.Spec.proj
  refine Finset.sum_congr rfl fun k _ => ?_
  rw [xblk_apply V c t r k, w1blk_apply V c t k h]

/-- WHAT POINT t WRITES BACK to the V array is block t of x·Wv. -/
theorem flushed0_4_eq (t : Fin cfg0.N) :
    (dat0 (F := Ideal) V c).flushed 4 t = ((cfg0.win 4).blk t).view.read (Elt Ideal) (Vfn V c) := by
  show (cfg0.win 4).cut (grid0.coords t) ((dat0 (F := Ideal) V c).after 4 t) = _
  rw [after0_4]
  unfold out0_4
  rw [View.canon_unit_zero hz3]
  simp only [View.ld_unit_zero (S := S1x1024x512) hz3, View.ld_unit_zero (S := S512x64) hz2]
  funext y
  obtain ⟨p, r, h, rfl⟩ : ∃ (p : Fin 1) (r : Fin 1024) (h : Fin 64), y = ix3 p r h := ⟨y 0, y 1, y 2, eq_ix3 y⟩
  obtain rfl : p = 0 := Subsingleton.elim _ _
  rw [View.read_apply, emb0_4]
  show k0_pay3 (iblk0 (F := Ideal) V c 0 t) (iblk0 (F := Ideal) V c 2 t) (ix3 (0 : Fin 1) r h)
    = Cert.Spec.proj (V c main_arg0 : S4x4096x512.Idx → EReal) (V c main_arg3 : S512x64.Idx → EReal) (bOf0 t) (rowOf0 t r) h
  refine (k0_pay3_apply _ _ r h).trans ?_
  unfold Cert.Spec.proj
  refine Finset.sum_congr rfl fun k _ => ?_
  rw [xblk_apply V c t r k, w2blk_apply V c t k h]

end

/-! ## The blocks tile the arrays -/

/-- An index of the K array is in point t's block iff each coordinate is in the block's range on its axis. -/
theorem mem_blk0_3 (t : Fin cfg0.N) (i : S4x4096x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0_0).slice (win0_3.rect t)).set ↔ _
  rw [View.set_slice_whole, Rect.mem_set_unit]
  exact Iff.rfl

/-- The same for the V array. -/
theorem mem_blk0_4 (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_1).slice (win0_4.rect t)).set ↔ _
  rw [View.set_slice_whole, Rect.mem_set_unit]
  exact Iff.rfl

/-- Row (b, T) of the K array is in the block of point 4 b + T / 1024, and every point writes back. -/
theorem cover0_3 (i : S4x4096x64.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 64 := (i 2).isLt
  obtain ⟨t, ht⟩ : ∃ t : Fin cfg0.N, t.val = 4 * (i 0).val + (i 1).val / 1024 :=
    ⟨⟨4 * (i 0).val + (i 1).val / 1024, by have h16 : cfg0.N = 16 := N_0; omega⟩, rfl⟩
  refine ⟨t, flush0_3 t, ?_⟩
  rw [mem_blk0_3]
  obtain ⟨-, -, -, -, -, -, -, e0, e1, e2, -⟩ := idx0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The same for the V array. -/
theorem cover0_4 (i : S4x4096x64.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 64 := (i 2).isLt
  obtain ⟨t, ht⟩ : ∃ t : Fin cfg0.N, t.val = 4 * (i 0).val + (i 1).val / 1024 :=
    ⟨⟨4 * (i 0).val + (i 1).val / 1024, by have h16 : cfg0.N = 16 := N_0; omega⟩, rfl⟩
  refine ⟨t, flush0_4 t, ?_⟩
  rw [mem_blk0_4]
  obtain ⟨-, -, -, -, -, -, -, -, -, -, e0, e1, e2⟩ := idx0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-! ## The arrays after the region -/

section
variable (V : (c : Dev nD) → (b : Ref sig .tc) → Buf (Elt Ideal) ((c : Thread nD τ).loc b)) (c : Dev nD)

/-- THE K ARRAY after region 0 is x·Wk. -/
theorem K_arr : (dat0 (F := Ideal) V c).arrAt 3 cfg0.N
    = fun i => Cert.Spec.proj (V c main_arg0 : S4x4096x512.Idx → EReal) (V c main_arg2 : S512x64.Idx → EReal) (i 0) (i 1) (i 2) :=
  (dat0 (F := Ideal) V c).arrAt_eq_of_cover 3 (Kfn V c) (fun t _ => flushed0_3_eq V c t) cover0_3

/-- THE V ARRAY after region 0 is x·Wv. -/
theorem V_arr : (dat0 (F := Ideal) V c).arrAt 4 cfg0.N
    = fun i => Cert.Spec.proj (V c main_arg0 : S4x4096x512.Idx → EReal) (V c main_arg3 : S512x64.Idx → EReal) (i 0) (i 1) (i 2) :=
  (dat0 (F := Ideal) V c).arrAt_eq_of_cover 4 (Vfn V c) (fun t _ => flushed0_4_eq V c t) cover0_4

end

end Cert.KernelIdeal.Val

end
-- ==== Proof.Finite.lean ====
import proofs.«163724_j46600395161875_2_alg».proof.Pre_finite_inputs
import proofs.«163724_j46600395161875_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-! From the precondition (every input entry has absolute value below +∞) to: every input entry is a real. -/

noncomputable section

namespace Cert.Finite

open Idealize.ShloMosaic Cert.Pre_finite_inputs Cert.Pre_finite_inputs.Gen

instance : Subsingleton Cert.Pre_finite_inputs.S_.Idx := ⟨fun a b => funext fun d => d.elim0⟩

/-- An extended real whose absolute value compares below the word 0x7F800000 (+∞) is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  have h' : max x (-x) < (⊤ : EReal) := by
    have := h
    simp only [Ideal.cmpf_def, Ideal.hostAbsf_def, Ideal.absf_def, Ideal.ofBits_def, htop, Ideal.cmp] at this
    by_contra hn
    rw [decide_eq_false hn] at this
    exact absurd this (by decide)
  induction x using EReal.rec with
  | bot => simp at h'
  | coe r => exact ⟨r, rfl⟩
  | top => simp at h'

/-- Every entry of an array whose all-finite test is 1 is a real. -/
theorem all_real {s : Shape} {axes : List (Fin s.rank)} (a : FVec Ideal s .f32) (hb : S_.BroadcastsInDim s (![] : Fin 0 → Fin s.rank))
    (hr : s.ReducesTo axes S_)
    (h : Host.reduce IntOp.andi (cmpf .olt (Host.absf a) (broadcastInDim s ![] hb (constant (F := Ideal) S_ .f32 0x7F800000#32)))
      (constantI S_ 1 1#1) hr h_S_ ValueIdx.ix0 = 1#1) (i : s.Idx) : ∃ r : ℝ, a i = (r : EReal) :=
  real_of_abs_lt (a i) (Host.reduce_andi_all _ _ hr h_S_ ValueIdx.ix0 h i)

/-- Under the precondition every argument entry is a real. -/
theorem real_of_pre (a0 : FVec Ideal Cert.Pre_finite_inputs.S4x4096x512 .f32) (a1 a2 a3 : FVec Ideal Cert.Pre_finite_inputs.S512x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ h0', all_real a1 _ _ h1, all_real a2 _ _ h2, all_real a3 _ _ h3⟩

end Cert.Finite

end
-- ==== Proof.KI.R1Pieces.lean ====
/-
  Region 1's frame read back in the body's own terms. Every store of the attention kernel's body writes a whole
  buffer and every load reads a whole buffer, so what each case's run leaves in a scratch buffer or in the output
  window's buffer is the payload of the last store into it, over the blocks and the scratch contents the point was
  handed. Point by point along the grid this says that the four scratch components are the online-softmax state
  spelt out as a recursion over the points, and that at a last key block the output buffer holds the accumulator
  divided by the running sum. Everything is stated for any float instance.
-/
import proofs.«163724_j46600395161875_2_alg».proof.Proof.KI.R1Frame
import proofs.«163724_j46600395161875_2_alg».proof.Proof.KI.R1State
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Zero offsets, as the whole-buffer rectangles spell them. -/
theorem zero_off2 : (![0, 0] : Fin 2 → Nat) = fun _ => 0 := by funext a; fin_cases a <;> rfl
theorem zero_off3 : (![0, 0, 0] : Fin 3 → Nat) = fun _ => 0 := by funext a; fin_cases a <;> rfl

/-! ## One lemma per found piece list -/

theorem sout1_A_0_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    sout1_A_0 c i arg3 harg3 arg4 harg4 arg5 harg5 arg6 harg6 arg7 harg7 arg8 harg8 arg9 harg9 arg10 harg10 arg11 harg11 hc0 hc1 x0 x1 x2 x3 = k1_pay3 (k1_pay11 i (k1_pay8 x0 x3) x1 k1_pay5) := by
  unfold sout1_A_0
  rw [View.read_writes_junk_eq_canon]
  unfold kernelRun1_A; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_A_1_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    sout1_A_1 c i arg3 harg3 arg4 harg4 arg5 harg5 arg6 harg6 arg7 harg7 arg8 harg8 arg9 harg9 arg10 harg10 arg11 harg11 hc0 hc1 x0 x1 x2 x3 = k1_pay1 (k1_pay14 i (k1_pay8 x0 x3) x1 k1_pay5 k1_pay6) (k1_pay15 i (k1_pay8 x0 x3) x1 k1_pay5) := by
  unfold sout1_A_1
  rw [View.read_writes_junk_eq_canon]
  unfold kernelRun1_A; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_A_2_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    sout1_A_2 c i arg3 harg3 arg4 harg4 arg5 harg5 arg6 harg6 arg7 harg7 arg8 harg8 arg9 harg9 arg10 harg10 arg11 harg11 hc0 hc1 x0 x1 x2 x3 = k1_pay2 (k1_pay9 x2) (k1_pay12 i (k1_pay8 x0 x3) x1 k1_pay5) (k1_pay13 i (k1_pay8 x0 x3) x1 k1_pay5) k1_pay7 := by
  unfold sout1_A_2
  rw [View.read_writes_junk_eq_canon]
  unfold kernelRun1_A; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_A_3_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : cond1_0 i) (hc1 : ¬cond1_1 i)
    (x0 : Vec F S1x1024x512 .f32) (x1 : Vec F S1x1024x64 .bf16) (x2 : Vec F S1x1024x64 .bf16) (x3 : Vec F S512x64 .f32) :
    sout1_A_3 c i arg3 harg3 arg4 harg4 arg5 harg5 arg6 harg6 arg7 harg7 arg8 harg8 arg9 harg9 arg10 harg10 arg11 harg11 hc0 hc1 x0 x1 x2 x3 = k1_pay8 x0 x3 := by
  unfold sout1_A_3
  rw [View.read_writes_junk_eq_canon]
  unfold kernelRun1_A; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_B_0_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_B_0 c i arg3 harg3 arg4 harg4 arg5 harg5 arg6 harg6 arg7 harg7 arg8 harg8 arg9 harg9 arg10 harg10 arg11 harg11 hc0 hc1 x0 x1 x2 x3 xs0 xs1 xs2 xs3 = k1_pay3 (k1_pay11 i xs3 x1 xs0) := by
  unfold sout1_B_0
  rw [View.read_writes_junk_eq_canon]
  unfold kernelRun1_B; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_B_1_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_B_1 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay14 i xs3 x1 xs0 xs1) (k1_pay15 i xs3 x1 xs0) := by
  unfold sout1_B_1
  rw [View.read_writes_junk_eq_canon]
  unfold kernelRun1_B; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_B_2_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : ¬cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_B_2 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay9 x2) (k1_pay12 i xs3 x1 xs0) (k1_pay13 i xs3 x1 xs0) xs2 := by
  unfold sout1_B_2
  rw [View.read_writes_junk_eq_canon]
  unfold kernelRun1_B; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_C_0_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_C_0 c i arg3 harg3 arg4 harg4 arg5 harg5 arg6 harg6 arg7 harg7 arg8 harg8 arg9 harg9 arg10 harg10 arg11 harg11 hc0 hc1 x0 x1 x2 x3 xs0 xs1 xs2 xs3 = k1_pay3 (k1_pay11 i xs3 x1 xs0) := by
  unfold sout1_C_0
  rw [View.read_writes_junk_eq_canon]
  unfold kernelRun1_C; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_C_1_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_C_1 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay14 i xs3 x1 xs0 xs1) (k1_pay15 i xs3 x1 xs0) := by
  unfold sout1_C_1
  rw [View.read_writes_junk_eq_canon]
  unfold kernelRun1_C; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem sout1_C_2_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    sout1_C_2 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay9 x2) (k1_pay12 i xs3 x1 xs0) (k1_pay13 i xs3 x1 xs0) xs2 := by
  unfold sout1_C_2
  rw [View.read_writes_junk_eq_canon]
  unfold kernelRun1_C; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

theorem out1_C_4_eq (c : Dev nD) (i : grid1.Coords) (arg3 : Memref sig .tc .vmem S1x1024x512 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S512x64 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x64 .bf16) (harg11 : arg11.IsWhole) (hc0 : ¬cond1_0 i) (hc1 : cond1_1 i)
    (x0 : Vec F S1x1024x512 .f32) (x1 : Vec F S1x1024x64 .bf16) (x2 : Vec F S1x1024x64 .bf16) (x3 : Vec F S512x64 .f32) (xs0 : Vec F S1024x1 .f32) (xs1 : Vec F S1024x1 .f32) (xs2 : Vec F S1024x64 .f32) (xs3 : Vec F S1024x64 .bf16) :
    out1_C_4 c i arg3 harg3 arg4 harg4 arg5 harg5 arg6 harg6 arg7 harg7 arg8 harg8 arg9 harg9 arg10 harg10 arg11 harg11 hc0 hc1 x0 x1 x2 x3 xs0 xs1 xs2 xs3 = k1_pay4 (k1_pay2 (k1_pay9 x2) (k1_pay12 i xs3 x1 xs0) (k1_pay13 i xs3 x1 xs0) xs2) (k1_pay1 (k1_pay14 i xs3 x1 xs0 xs1) (k1_pay15 i xs3 x1 xs0)) := by
  unfold out1_C_4
  rw [View.read_writes_junk_eq_canon]
  unfold kernelRun1_C; dsimp only; sl_unfold_words
  simp only [View.readAt_eq_ld, harg3.read_unread, harg4.read_unread, harg5.read_unread, harg6.read_unread, harg8.read_unread, harg9.read_unread, harg10.read_unread, harg11.read_unread,
    View.canon_cons_unit_zero (S := S1024x1) zero_off2, View.canon_cons_unit_zero (S := S1024x64) zero_off2, View.canon_cons_unit_zero (S := S1x1024x64) zero_off3,
    View.readCov_unit_zero (S := S1024x1) _ zero_off2, View.readCov_unit_zero (S := S1024x64) _ zero_off2,
    View.ld_unit_zero (S := S1x1024x512) zero_off3, View.ld_unit_zero (S := S1x1024x64) zero_off3, View.ld_unit_zero (S := S512x64) zero_off2, View.ld_unit_zero (S := S1024x1) zero_off2, View.ld_unit_zero (S := S1024x64) zero_off2]
  try rfl

/-! ## Point by point -/

section Regions

variable (V : (c : Dev nD) → (b : Ref sig .tc) → Buf (Elt F) ((c : Thread nD τ).loc b))

/-- At a first key block the four scratch components are the reset followed by one step. -/
theorem state1_A (c : Dev nD) (t : Fin cfg1.N) (h0 : t.val % 4 = 0) :
    (outsAt1 V c t.val t.isLt).2 = st1 V c t.val t.isLt := by
  rw [outsAt1_A V c t h0, st1_first V c t h0]
  dsimp only
  rw [sout1_A_0_eq, sout1_A_1_eq, sout1_A_2_eq, sout1_A_3_eq]
  rfl

/-- At a middle key block they are one step from the point before's. -/
theorem state1_B (c : Dev nD) (t : Fin cfg1.N) (h0 : ¬t.val % 4 = 0) (h1 : ¬t.val % 4 = 3)
    (ih : (outsAt1 V c (t.val - 1) (Nat.lt_of_le_of_lt (Nat.sub_le _ _) t.isLt)).2 = st1 V c (t.val - 1) (Nat.lt_of_le_of_lt (Nat.sub_le _ _) t.isLt)) :
    (outsAt1 V c t.val t.isLt).2 = st1 V c t.val t.isLt := by
  rw [outsAt1_B V c t h0 h1, st1_next V c t h0, ← ih]
  dsimp only
  rw [sout1_B_0_eq, sout1_B_1_eq, sout1_B_2_eq]
  rfl

/-- At a last key block likewise. -/
theorem state1_C (c : Dev nD) (t : Fin cfg1.N) (h1 : t.val % 4 = 3)
    (ih : (outsAt1 V c (t.val - 1) (Nat.lt_of_le_of_lt (Nat.sub_le _ _) t.isLt)).2 = st1 V c (t.val - 1) (Nat.lt_of_le_of_lt (Nat.sub_le _ _) t.isLt)) :
    (outsAt1 V c t.val t.isLt).2 = st1 V c t.val t.isLt := by
  have h0 : ¬t.val % 4 = 0 := by omega
  rw [outsAt1_C V c t h1, st1_next V c t h0, ← ih]
  dsimp only
  rw [sout1_C_0_eq, sout1_C_1_eq, sout1_C_2_eq]
  rfl

/-- After every point the scratch buffers hold the online-softmax state spelt out over the points. -/
theorem outsAt1_state (c : Dev nD) (n : ℕ) (hn : n < cfg1.N) : (outsAt1 V c n hn).2 = st1 V c n hn := by
  induction n with
  | zero => exact state1_A V c ⟨0, hn⟩ (Nat.zero_mod _)
  | succ n ih =>
    by_cases h0 : (n + 1) % 4 = 0
    · exact state1_A V c ⟨n + 1, hn⟩ h0
    · by_cases h1 : (n + 1) % 4 = 3
      · exact state1_C V c ⟨n + 1, hn⟩ h1 (ih _)
      · exact state1_B V c ⟨n + 1, hn⟩ h0 h1 (ih _)

/-- At a last key block the output window's buffer holds the accumulator divided by the running sum. -/
theorem outsAt1_out (c : Dev nD) (t : Fin cfg1.N) (h3 : t.val % 4 = 3) :
    (outsAt1 V c t.val t.isLt).1 = outOf (st1 V c t.val t.isLt) := by
  have h0 : ¬t.val % 4 = 0 := by omega
  rw [st1_next V c t h0, ← outsAt1_state V c (t.val - 1) (Nat.lt_of_le_of_lt (Nat.sub_le _ _) t.isLt), outsAt1_C V c t h3]
  dsimp only
  rw [out1_C_4_eq]
  rfl

end Regions

end Cert.KernelIdeal.Hand

end
-- ==== Proof.Val.Main.lean ====
/-
  The kernel program's result. Under the precondition every argument entry is a real number. Region 0 leaves the
  projections K = x·Wk and V = x·Wv; region 1, entered from them, leaves at every (batch, row, column) the
  softmax-weighted sum of the specification; so the run of the whole program ends with the result array at the
  specification's function of the four argument arrays, and the arguments as launched.
-/
import proofs.«163724_j46600395161875_2_alg».proof.Proof.Val.R1Value
import proofs.«163724_j46600395161875_2_alg».proof.Proof.Val.R1Cover
import proofs.«163724_j46600395161875_2_alg».proof.Proof.Val.R0Value
import proofs.«163724_j46600395161875_2_alg».proof.Proof.Finite
import proofs.«163724_j46600395161875_2_alg».proof.Proof.KI.Run
import proofs.«163724_j46600395161875_2_alg».proof.Proof.KI.R1Pieces
import proofs.«163724_j46600395161875_2_alg».proof.Proof.RefValue
import proofs.«163724_j46600395161875_2_alg».proof.Defs

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg)

/-- The result array after the run is the specification's function of the launch arguments. -/
theorem out_eq (hpre : Cert.Pre_KernelIdeal m) (c : Dev nD) :
    (dat1 (F := Ideal) (V1 m ρ) c).arrAt 4 cfg1.N
      = Cert.Spec.G (m ((c.tc : Thread nD τ).loc main_arg0)) (m ((c.tc : Thread nD τ).loc main_arg1))
          (m ((c.tc : Thread nD τ).loc main_arg2)) (m ((c.tc : Thread nD τ).loc main_arg3)) := by
  obtain ⟨hx, hq, hk, hv⟩ := Cert.Finite.real_of_pre _ _ _ _ (hpre c)
  have hVx : (V1 m ρ c main_arg0 : S4x4096x512.Idx → EReal) = m ((c.tc : Thread nD τ).loc main_arg0) := W1_main_arg0 m ρ c
  have hVq : (V1 m ρ c main_arg1 : S512x64.Idx → EReal) = m ((c.tc : Thread nD τ).loc main_arg1) := W1_main_arg1 m ρ c
  have hVk : (V1 m ρ c main_v0_0 : S4x4096x64.Idx → EReal)
      = fun i => Cert.Spec.proj (m ((c.tc : Thread nD τ).loc main_arg0)) (m ((c.tc : Thread nD τ).loc main_arg2)) (i 0) (i 1) (i 2) :=
    (W1_arr m ρ c 3).trans (K_arr (V0 m ρ) c)
  have hVv : (V1 m ρ c main_v0_1 : S4x4096x64.Idx → EReal)
      = fun i => Cert.Spec.proj (m ((c.tc : Thread nD τ).loc main_arg0)) (m ((c.tc : Thread nD τ).loc main_arg3)) (i 0) (i 1) (i 2) :=
    (W1_arr m ρ c 4).trans (V_arr (V0 m ρ) c)
  refine out_arr_of c (dat1 (F := Ideal) (V1 m ρ) c) _ fun t h3 r h => ?_
  rw [after1_4, outsAt1_out (V1 m ρ) c t h3]
  exact st1_out (V1 m ρ) c _ _ _ _ hx hq hk hv hVx hVq hVk hVv t h3 r h

/-- The kernel program's run, with the result named. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨(hr c).1.trans (out_eq m ρ hpre c), (hr c).2⟩) (run_main (F := Ideal) m ρ)

/-- The two idealized programs end with equal results. -/
theorem algebraic : Cert.algebraic_KernelIdeal_ReferenceIdeal := fun m g m' g' hpre hagree =>
  ⟨fun c => Cert.Spec.G (m ((c.tc : Thread nD τ).loc main_arg0)) (m ((c.tc : Thread nD τ).loc main_arg1))
      (m ((c.tc : Thread nD τ).loc main_arg2)) (m ((c.tc : Thread nD τ).loc main_arg3)),
    kernel_run m g hpre, Cert.ReferenceIdeal.RefValue.ref_run_agree m m' g' hagree⟩

end Cert.KernelIdeal.Val

end
-- ==== Proof.lean ====
/-
  The certificate of a two-stage attention kernel against plain softmax attention.

  The programs. From x : [4, 4096, 512] and three [512, 64] weight matrices the reference forms q = x·Wq, k = x·Wk,
  v = x·Wv, the scores q·kᵀ / 8 with the diagonal set to 0, their row-wise softmax, and the product with v. The kernel
  does it in two grids: the first writes k and v, one 1024-row block per point; the second walks, for every batch and
  1024-row query tile, over the four 1024-row key tiles, keeping a running row maximum m, a running row sum l, an
  accumulator acc and the projected query tile in scratch buffers (reset at the first key tile), and writes acc / l
  at the last one.

  The frames of the two kernel programs (at the word level and on the extended reals) are one argument, stated for any
  float instance: each grid is a segment over "every unscoped buffer at known contents", the first from the launch
  memory, the second from what the first leaves; the second grid's invariant carries the four scratch buffers at the
  recurrence's state between points. The reference's frame is its run.

  The value claim: on the extended reals the carried state after the four key tiles of a group is, row by row and
  column by column, the online recurrence (max, rescaled sum, rescaled accumulator) on that row's 4 × 1024 scores;
  for real inputs — the precondition — that recurrence's quotient is the softmax-weighted sum, because rescaling by
  exp (m_old − m_new) turns exp (s − m_old) into exp (s − m_new) and the final sum is a positive real. The first grid's
  blocks tile k and v, the second grid's written blocks tile the result, and the reference's operations read at an
  index are the same specification. The idealization rewrote nothing, so the preservation claim is trivial.
-/
import proofs.«163724_j46600395161875_2_alg».proof.Defs
import proofs.«163724_j46600395161875_2_alg».proof.Proof.Gen.Kernel
import proofs.«163724_j46600395161875_2_alg».proof.Proof.Gen.KernelIdeal
import proofs.«163724_j46600395161875_2_alg».proof.Proof.Gen.ReferenceIdeal
import proofs.«163724_j46600395161875_2_alg».proof.Proof.Gen.Pre_finite_inputs
import proofs.«163724_j46600395161875_2_alg».proof.Proof.K.Run
import proofs.«163724_j46600395161875_2_alg».proof.Proof.KI.Run
import proofs.«163724_j46600395161875_2_alg».proof.Proof.RefValue
import proofs.«163724_j46600395161875_2_alg».proof.Proof.Val.Main
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefValue.frame_ri,
    trivial,
    Cert.KernelIdeal.Val.algebraic⟩

end Cert.Proof

end
